-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S640000x128 : Shape := ⟨2, ![640000, 128]⟩
abbrev S2x640000 : Shape := ⟨2, ![2, 640000]⟩
abbrev S384x256 : Shape := ⟨2, ![384, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S256x256 .f32) (main_arg6 : FVec F S256 .f32) (main_arg7 : FVec F S256x128 .f32) (main_arg8 : FVec F S128 .f32) (main_arg9 : FVec F S128 .f32) (main_arg10 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S20000x128 .f32) (main_arg1 : FVec F S640000x128 .f32) (main_arg2 : IVec S2x640000 32) (main_arg3 : FVec F S384x256 .f32) (main_arg4 : FVec F S256 .f32) (main_arg5 : FVec F S256x256 .f32) (main_arg6 : FVec F S256 .f32) (main_arg7 : FVec F S256x128 .f32) (main_arg8 : FVec F S128 .f32) (main_arg9 : FVec F S128 .f32) (main_arg10 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S384x256 .f32 := Host.absf main_arg3
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S20000x128 : Shape := ⟨2, ![20000, 128]⟩
abbrev S640000x128 : Shape := ⟨2, ![640000, 128]⟩
abbrev S2x640000 : Shape := ⟨2, ![2, 640000]⟩
abbrev S384x256 : Shape := ⟨2, ![384, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S1280000 : Shape := ⟨1, ![1280000]⟩
abbrev S_ : Shape := ⟨0, ![]⟩
abbrev S1280000x1 : Shape := ⟨2, ![1280000, 1]⟩
abbrev S1280000x128 : Shape := ⟨2, ![1280000, 128]⟩
abbrev S128x256 : Shape := ⟨2, ![128, 256]⟩
abbrev S1x256 : Shape := ⟨2, ![1, 256]⟩
abbrev S1x128 : Shape := ⟨2, ![1, 128]⟩
abbrev S4000x128 : Shape := ⟨2, ![4000, 128]⟩
abbrev S4000x256 : Shape := ⟨2, ![4000, 256]⟩
abbrev S4000 : Shape := ⟨1, ![4000]⟩
abbrev S4000x1 : Shape := ⟨2, ![4000, 1]⟩

abbrev nBuf : Space → Nat
  | .hbm => 40
  | .vmem => 18
  | .smem => 0
  | _ => 0

abbrev bufTy : (tb : Table) → Fin (tcTables nBuf tb) → BufTy
  | .hbm, ⟨0, _⟩ => ⟨S20000x128, .f32⟩
  | .hbm, ⟨1, _⟩ => ⟨S640000x128, .f32⟩
  | .hbm, ⟨2, _⟩ => ⟨S2x640000, .i32⟩
  | .hbm, ⟨3, _⟩ => ⟨S384x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S20000x128, .bf16⟩
  | .hbm, ⟨16, _⟩ => ⟨S1280000, .i32⟩
  | .hbm, ⟨17, _⟩ => ⟨S_, .i32⟩
  | .hbm, ⟨18, _⟩ => ⟨S1280000, .i32⟩
  | .hbm, ⟨19, _⟩ => ⟨S1280000, .i1⟩
  | .hbm, ⟨20, _⟩ => ⟨S_, .i32⟩
  | .hbm, ⟨21, _⟩ => ⟨S1280000, .i32⟩
  | .hbm, ⟨22, _⟩ => ⟨S1280000, .i32⟩
  | .hbm, ⟨23, _⟩ => ⟨S1280000, .i32⟩
  | .hbm, ⟨24, _⟩ => ⟨S1280000x1, .i32⟩
  | .hbm, ⟨25, _⟩ => ⟨S1280000x128, .bf16⟩
  | .hbm, ⟨26, _⟩ => ⟨S640000x128, .bf16⟩
  | .hbm, ⟨27, _⟩ => ⟨S640000x128, .bf16⟩
  | .hbm, ⟨28, _⟩ => ⟨S384x256, .bf16⟩
  | .hbm, ⟨29, _⟩ => ⟨S128x256, .bf16⟩
  | .hbm, ⟨30, _⟩ => ⟨S128x256, .bf16⟩
  | .hbm, ⟨31, _⟩ => ⟨S128x256, .bf16⟩
  | .hbm, ⟨32, _⟩ => ⟨S256x256, .bf16⟩
  | .hbm, ⟨33, _⟩ => ⟨S256x128, .bf16⟩
  | .hbm, ⟨34, _⟩ => ⟨S1x256, .f32⟩
  | .hbm, ⟨35, _⟩ => ⟨S1x256, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S640000x128, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x128, .f32⟩
  | .local _ .vmem, ⟨5, _⟩ => ⟨S4000x128, .f32⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S256x128, .bf16⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bitsLt_bf16_f32 : FTy.bits .bf16 < FTy.bits .f32
  concatenates_S640000_S640000_S1280000_d0 : Shape.Concatenates [S640000, S640000] S1280000 0
  bcast_S_S1280000 : S_.BroadcastsInDim S1280000 (![] : Fin 0 → Fin S1280000.rank)
  bcast_S1280000_S1280000x1_0 : S1280000.BroadcastsInDim S1280000x1 (![0] : Fin 1 → Fin S1280000x1.rank)
  slices_S1280000x128_S640000x128_0_0 : S1280000x128.Slices ![0, 0] S640000x128
  slices_S1280000x128_S640000x128_640000_0 : S1280000x128.Slices ![640000, 0] S640000x128
  slices_S384x256_S128x256_0_0 : S384x256.Slices ![0, 0] S128x256
  slices_S384x256_S128x256_128_0 : S384x256.Slices ![128, 0] S128x256
  slices_S384x256_S128x256_256_0 : S384x256.Slices ![256, 0] S128x256
  shapeCasts_S256_S1x256 : S256.ShapeCasts S1x256
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  gather_S20000x128_S1280000x1_S1280000x128_1_0_n_n_0_1_1128_wf : GatherDims.WF S20000x128 S1280000x1 S1280000x128 [1] [0] [] [0] [] 1 ![1, 128]
  dot_S4000x128_S128x256_S4000x256_1_0_0_1_n_n_wf : DotDims.WF S4000x128 S128x256 S4000x256 [1] [0] [0] [1] [] []
  dot_S4000x256_S256x256_S4000x256_1_0_0_1_n_n_wf : DotDims.WF S4000x256 S256x256 S4000x256 [1] [0] [0] [1] [] []
  dot_S4000x256_S256x128_S4000x128_1_0_0_1_n_n_wf : DotDims.WF S4000x256 S256x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S640000x128.size a
  hwx0_0 : ∀ i : grid0.Coords, EltTy.bits .bf16 = 32 ∨ (Rect.block (s := S640000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S640000x128.size a
  hwx0_1 : ∀ i : grid0.Coords, EltTy.bits .bf16 = 32 ∨ (Rect.block (s := S640000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S640000x128.size a
  hwx0_2 : ∀ i : grid0.Coords, EltTy.bits .f32 = 32 ∨ (Rect.block (s := S640000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .bf16 = 32 ∨ (Rect.block (s := S256x128) S256x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x128.size a ≤ S640000x128.size a
  hwx0_13 : ∀ i : grid0.Coords, EltTy.bits .f32 = 32 ∨ (Rect.block (s := S640000x128) S4000x128.size (cc0_transform_13 i) (hinb0_13 i)).WholeWords (EltTy.packing .f32)

variable [Facts₀]

def gather_S20000x128_S1280000x1_S1280000x128_1_0_n_n_0_1_1128 : GatherDims S20000x128 S1280000x1 S1280000x128 where
  offsetDims := [1]
  collapsedSliceDims := [0]
  operandBatchingDims := []
  startIndicesBatchingDims := []
  startIndexMap := [0]
  indexVectorDim := 1
  sliceSizes := ![1, 128]
  wf := gather_S20000x128_S1280000x1_S1280000x128_1_0_n_n_0_1_1128_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf

abbrev win0_0 : Pipeline.Window sig grid0 :=
  Pipeline.Window.ofSpec (Memref.whole main_v13) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v24) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v25) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v26) S4000x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S20000x128 : Shape := ⟨2, ![20000, 128]⟩
abbrev S640000x128 : Shape := ⟨2, ![640000, 128]⟩
abbrev S2x640000 : Shape := ⟨2, ![2, 640000]⟩
abbrev S384x256 : Shape := ⟨2, ![384, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x384 : Shape := ⟨2, ![640000, 384]⟩
abbrev S640000x256 : Shape := ⟨2, ![640000, 256]⟩
abbrev S1x256 : Shape := ⟨2, ![1, 256]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S640000x128, .f32⟩
  | .hbm, ⟨2, _⟩ => ⟨S2x640000, .i32⟩
  | .hbm, ⟨3, _⟩ => ⟨S384x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S640000x384, .f32⟩
  | .hbm, ⟨34, _⟩ => ⟨S640000x256, .f32⟩
  | .hbm, ⟨35, _⟩ => ⟨S1x256, .f32⟩
  | .hbm, ⟨36, _⟩ => ⟨S640000x256, .f32⟩
  | .hbm, ⟨37, _⟩ => ⟨S640000x256, .f32⟩
  | .hbm, ⟨38, _⟩ => ⟨S_, .f32⟩
  | .hbm, ⟨39, _⟩ => ⟨S640000x256, .f32⟩
  | .hbm, ⟨40, _⟩ => ⟨S640000x256, .f32⟩
  | .hbm, ⟨41, _⟩ => ⟨S640000x256, .f32⟩
  | .hbm, ⟨42, _⟩ => ⟨S1x256, .f32⟩
  | .hbm, ⟨43, _⟩ => ⟨S640000x256, .f32⟩
  | .hbm, ⟨44, _⟩ => ⟨S640000x256, .f32⟩
  | .hbm, ⟨45, _⟩ => ⟨S_, .f32⟩
  | .hbm, ⟨46, _⟩ => ⟨S640000x256, .f32⟩
  | .hbm, ⟨47, _⟩ => ⟨S640000x256, .f32⟩
  | .hbm, ⟨48, _⟩ => ⟨S640000x128, .f32⟩
  | .hbm, ⟨49, _⟩ => ⟨S1x128, .f32⟩
  | .hbm, ⟨50, _⟩ => ⟨S640000x128, .f32⟩
  | .hbm, ⟨51, _⟩ => ⟨S640000x128, .f32⟩
  | .hbm, ⟨52, _⟩ => ⟨S_, .f32⟩
  | .hbm, ⟨53, _⟩ => ⟨S640000, .f32⟩
  | .hbm, ⟨54, _⟩ => ⟨S640000x1, .f32⟩
  | .hbm, ⟨55, _⟩ => ⟨S_, .f32⟩
  | .hbm, ⟨56, _⟩ => ⟨S640000x1, .f32⟩
  | .hbm, ⟨57, _⟩ => ⟨S640000x1, .f32⟩
  | .hbm, ⟨58, _⟩ => ⟨S640000x128, .f32⟩
  | .hbm, ⟨59, _⟩ => ⟨S640000x128, .f32⟩
  | .hbm, ⟨60, _⟩ => ⟨S640000x128, .f32⟩
  | .hbm, ⟨61, _⟩ => ⟨S_, .f32⟩
  | .hbm, ⟨62, _⟩ => ⟨S640000, .f32⟩
  | .hbm, ⟨63, _⟩ => ⟨S640000x1, .f32⟩
  | .hbm, ⟨64, _⟩ => ⟨S_, .f32⟩
  | .hbm, ⟨65, _⟩ => ⟨S640000x1, .f32⟩
  | .hbm, ⟨66, _⟩ => ⟨S640000x1, .f32⟩
  | .hbm, ⟨67, _⟩ => ⟨S640000x128, .f32⟩
  | .hbm, ⟨68, _⟩ => ⟨S640000x128, .f32⟩
  | .hbm, ⟨69, _⟩ => ⟨S_, .f32⟩
  | .hbm, ⟨70, _⟩ => ⟨S640000x1, .f32⟩
  | .hbm, ⟨71, _⟩ => ⟨S640000x1, .f32⟩
  | .hbm, ⟨72, _⟩ => ⟨S640000x1, .f32⟩
  | .hbm, ⟨73, _⟩ => ⟨S640000x128, .f32⟩
  | .hbm, ⟨74, _⟩ => ⟨S640000x128, .f32⟩
  | .hbm, ⟨75, _⟩ => ⟨S1x128, .f32⟩
  | .hbm, ⟨76, _⟩ => ⟨S640000x128, .f32⟩
  | .hbm, ⟨77, _⟩ => ⟨S640000x128, .f32⟩
  | .hbm, ⟨78, _⟩ => ⟨S1x128, .f32⟩
  | .hbm, ⟨79, _⟩ => ⟨S640000x128, .f32⟩
  | .hbm, ⟨80, _⟩ => ⟨S640000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_cst : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_4 : Ref sig .tc := ⟨.hbm, 61, rfl⟩
abbrev main_v40 : Ref sig .tc := ⟨.hbm, 62, rfl⟩
abbrev main_v41 : Ref sig .tc := ⟨.hbm, 63, rfl⟩
abbrev main_cst_5 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_6 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  bcast_S256_S1x256_1 : S256.BroadcastsInDim S1x256 (![1] : Fin 1 → Fin S1x256.rank)
  bcast_S1x256_S640000x256_0_1 : S1x256.BroadcastsInDim S640000x256 (![0, 1] : Fin 2 → Fin S640000x256.rank)
  bcast_S_S640000x256 : S_.BroadcastsInDim S640000x256 (![] : Fin 0 → Fin S640000x256.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  reducesTo_S640000x128_S640000_d1 : S640000x128.ReducesTo [1] S640000
  h_S_ : 0 < S_.numel
  bcast_S_S640000x1 : S_.BroadcastsInDim S640000x1 (![] : Fin 0 → Fin S640000x1.rank)
  bcast_S640000x1_S640000x128_0_1 : S640000x1.BroadcastsInDim S640000x128 (![0, 1] : Fin 2 → Fin S640000x128.rank)
  gather_S20000x128_S640000x1_S640000x128_1_0_n_n_0_1_1128_wf : GatherDims.WF S20000x128 S640000x1 S640000x128 [1] [0] [] [0] [] 1 ![1, 128]
  dot_S640000x384_S384x256_S640000x256_1_0_0_1_n_n_wf : DotDims.WF S640000x384 S384x256 S640000x256 [1] [0] [0] [1] [] []
  dot_S640000x256_S256x256_S640000x256_1_0_0_1_n_n_wf : DotDims.WF S640000x256 S256x256 S640000x256 [1] [0] [0] [1] [] []
  dot_S640000x256_S256x128_S640000x128_1_0_0_1_n_n_wf : DotDims.WF S640000x256 S256x128 S640000x128 [1] [0] [0] [1] [] []

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S640000x384_S384x256_S640000x256_1_0_0_1_n_n : DotDims S640000x384 S384x256 S640000x256 where
  lhsContracting := [1]
  rhsContracting := [0]
  lhsNonContracting := [0]
  rhsNonContracting := [1]
  lhsBatch := []
  rhsBatch := []
  wf := dot_S640000x384_S384x256_S640000x256_1_0_0_1_n_n_wf
def dot_S640000x256_S256x256_S640000x256_1_0_0_1_n_n : DotDims S640000x256 S256x256 S640000x256 where
  lhsContracting := [1]
  rhsContracting := [0]
  lhsNonContracting := [0]
  rhsNonContracting := [1]
  lhsBatch := []
  rhsBatch := []
  wf := dot_S640000x256_S256x256_S640000x256_1_0_0_1_n_n_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf

class Facts : Prop extends Facts₀ where

variable [Facts]
-- ==== Proof.Spec.lean ====
/-
  The function both programs compute, one edge at a time.

  For edge `e` the input row is the concatenation of the source node's features, the destination node's features and
  the edge's own features; three affine layers follow, the first two each followed by a rectifier, and the result
  row is normalised (mean and variance over its 128 entries) and then scaled and shifted entry by entry. Written on the
  extended reals, with the float constants kept as their binary words.

  The first layer is written the way it is computed when the input row is never assembled: the weight matrix's
  384 rows are three blocks of 128, and the product is the sum of the three blocks' products. `sum_three_blocks`
  says a sum over 384 consecutive positions is the sum of its three consecutive thirds — the only algebraic law the
  comparison needs; it uses commutativity and associativity of addition alone, so no entry has to be finite.
-/
import Idealize.ShloMosaic.PureOps.Ideal
import Idealize.ShloMosaic.Lib.ValueIdx

noncomputable section

open scoped BigOperators

namespace Cert.EdgeMlp

open Idealize.ShloMosaic Idealize.ShloMosaic.ValueIdx

/-! ## Positions in the three thirds of 384 -/

/-- Position `k` of the first third. -/
abbrev lo (k : Fin 128) : Fin 384 := ⟨k.val, by omega⟩
/-- Position `k` of the second third. -/
abbrev mid (k : Fin 128) : Fin 384 := ⟨128 + k.val, by omega⟩
/-- Position `k` of the last third. -/
abbrev hi (k : Fin 128) : Fin 384 := ⟨256 + k.val, by omega⟩

/-- A sum over 384 positions is the sum over its three consecutive thirds. -/
theorem sum_three_blocks {M : Type} [AddCommMonoid M] (f : Fin 384 → M) :
    ∑ k : Fin 384, f k = ((∑ k : Fin 128, f (lo k)) + ∑ k : Fin 128, f (mid k)) + ∑ k : Fin 128, f (hi k) := by
  have h1 : ∑ k : Fin (128 + 128 + 128), f k
      = (∑ k : Fin (128 + 128), f (Fin.castAdd 128 k)) + ∑ k : Fin 128, f (Fin.natAdd (128 + 128) k) :=
    Fin.sum_univ_add (fun k : Fin (128 + 128 + 128) => f k)
  have h2 : ∑ k : Fin (128 + 128), f (Fin.castAdd 128 k)
      = (∑ k : Fin 128, f (Fin.castAdd 128 (Fin.castAdd 128 k))) + ∑ k : Fin 128, f (Fin.castAdd 128 (Fin.natAdd 128 k)) :=
    Fin.sum_univ_add (fun k : Fin (128 + 128) => f (Fin.castAdd 128 k))
  rw [h2] at h1
  exact h1

/-! ## The layers, on one row -/

/-- The rectifier: the larger of the value and the zero word's value. -/
def relu0 (x : EReal) : EReal := max x (Ideal.ofBits .f32 0x00000000#32)

/-- An affine layer: entry `j` of the row times the matrix, plus the bias. -/
def dense {K N : ℕ} (h : Fin K → EReal) (W : Fin K → Fin N → EReal) (b : Fin N → EReal) (j : Fin N) : EReal :=
  (∑ k : Fin K, h k * W k j) + b j

/-- The first layer over three rows and the three blocks of its matrix: the three products added in that order, then
    the bias. -/
def dense3 {K N : ℕ} (s d x : Fin K → EReal) (Wa Wb Wc : Fin K → Fin N → EReal) (b : Fin N → EReal) (j : Fin N) : EReal :=
  (((∑ k : Fin K, s k * Wa k j) + ∑ k : Fin K, d k * Wb k j) + ∑ k : Fin K, x k * Wc k j) + b j

/-- A row's mean: its sum divided by the word of 128. -/
def rowMean {N : ℕ} (h : Fin N → EReal) : EReal := Ideal.div (∑ k : Fin N, h k) (Ideal.ofBits .f32 0x43000000#32)

/-- Normalisation of a row: each entry less the mean, times the reciprocal square root of the mean squared deviation
    plus the small constant's word, then scaled and shifted. -/
def lnorm {N : ℕ} (h g b : Fin N → EReal) (c : Fin N) : EReal :=
  ((h c - rowMean h)
      * Ideal.rsqrt (Ideal.div (∑ k : Fin N, (h k - rowMean h) * (h k - rowMean h)) (Ideal.ofBits .f32 0x43000000#32)
          + Ideal.ofBits .f32 0x3727C5AC#32))
    * g c + b c

/-- One edge's result row from its three input rows: the three layers and the normalisation. -/
def rowOut (s d x : Fin 128 → EReal) (Wa Wb Wc : Fin 128 → Fin 256 → EReal) (b1 : Fin 256 → EReal)
    (W2 : Fin 256 → Fin 256 → EReal) (b2 : Fin 256 → EReal) (W3 : Fin 256 → Fin 128 → EReal) (b3 g be : Fin 128 → EReal)
    (c : Fin 128) : EReal :=
  lnorm (dense (fun k => relu0 (dense (fun k' => relu0 (dense3 s d x Wa Wb Wc b1 k')) W2 b2 k)) W3 b3) g be c

/-! ## The node a word addresses -/

/-- A node number as the programs normalise it: a negative word has the node count added. -/
def wrapIdx (w : BitVec 32) : BitVec 32 := Scalar.select (IntOp.cmpi .slt w 0#32) (IntOp.addi w 20000#32) w

/-- The row of the node table a word addresses: read signed and clamped into the table. -/
def clampRow (w : BitVec 32) : Fin 20000 := ⟨min w.toInt.toNat (20000 - 1), by omega⟩

/-! ## The whole result -/

/-- Entry `(e, c)` of the result: edge `e`'s source and destination rows of the node table, its own feature row, the
    three layers (the first over the weight matrix's three row blocks) and the normalisation. -/
def edgeOut (node : (⟨2, ![20000, 128]⟩ : Shape).Idx → EReal) (edge : (⟨2, ![640000, 128]⟩ : Shape).Idx → EReal)
    (eidx : (⟨2, ![2, 640000]⟩ : Shape).Idx → BitVec 32) (W1 : (⟨2, ![384, 256]⟩ : Shape).Idx → EReal)
    (b1 : (⟨1, ![256]⟩ : Shape).Idx → EReal) (W2 : (⟨2, ![256, 256]⟩ : Shape).Idx → EReal)
    (b2 : (⟨1, ![256]⟩ : Shape).Idx → EReal) (W3 : (⟨2, ![256, 128]⟩ : Shape).Idx → EReal)
    (b3 g be : (⟨1, ![128]⟩ : Shape).Idx → EReal) (e : Fin 640000) (c : Fin 128) : EReal :=
  rowOut (fun k => node (ix2 (clampRow (wrapIdx (eidx (ix2 (0 : Fin 2) e)))) k))
    (fun k => node (ix2 (clampRow (wrapIdx (eidx (ix2 (1 : Fin 2) e)))) k))
    (fun k => edge (ix2 e k))
    (fun k j => W1 (ix2 (lo k) j)) (fun k j => W1 (ix2 (mid k) j)) (fun k j => W1 (ix2 (hi k) j)) (fun j => b1 (ix1 j))
    (fun k j => W2 (ix2 k j)) (fun j => b2 (ix1 j)) (fun k j => W3 (ix2 k j)) (fun j => b3 (ix1 j))
    (fun j => g (ix1 j)) (fun j => be (ix1 j)) c

/-- The result array as one function of the argument arrays. -/
def G (node : (⟨2, ![20000, 128]⟩ : Shape).Idx → EReal) (edge : (⟨2, ![640000, 128]⟩ : Shape).Idx → EReal)
    (eidx : (⟨2, ![2, 640000]⟩ : Shape).Idx → BitVec 32) (W1 : (⟨2, ![384, 256]⟩ : Shape).Idx → EReal)
    (b1 : (⟨1, ![256]⟩ : Shape).Idx → EReal) (W2 : (⟨2, ![256, 256]⟩ : Shape).Idx → EReal)
    (b2 : (⟨1, ![256]⟩ : Shape).Idx → EReal) (W3 : (⟨2, ![256, 128]⟩ : Shape).Idx → EReal)
    (b3 g be : (⟨1, ![128]⟩ : Shape).Idx → EReal) : (⟨2, ![640000, 128]⟩ : Shape).Idx → EReal :=
  fun i => edgeOut node edge eidx W1 b1 W2 b2 W3 b3 g be (i 0) (i 1)

end Cert.EdgeMlp

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.LibKeepdims.lean ====
/-
  Two column ("keepdims") layout forms read at an index.

  * An `[a]` array cast to `[a, 1]` reads, at `(i, u)`, the operand at `i`, whatever the unit coordinate `u`.
  * An `[a, 1]` array broadcast to `[a, b]` reads, at `(p, c)`, the operand's one entry of row `p`.

  Together they are how a per-row quantity (a row's maximum, a row's sum) is spread back over the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibRowReduce.lean ====
/-
  A row's maximum and a row's sum, read at the row, on the extended reals.

  * A reduction of an `[a, b]` array over its second axis reads, at row `r`, the entries `(r, k)`, `k : Fin b`:
    a maximum as the fold of `max` from the starting value over them, a sum as their sum.
  * A host reduction of an `[a, b, c]` array over its last axis by `max` reads, at `(p, r)`, the fold of `max` from the
    initial value over the entries `(p, r, k)`, `k : Fin c`.

  Both folds are over `Finset.univ` of the reduced axis, so a kernel's row maximum and a reference's meet as one term.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.Lib

open Idealize.ShloMosaic Idealize.ShloMosaic.ValueIdx

/-- Over result row `r`, the source index with `k` on the reduced second axis is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A row maximum: the fold of `max` from the starting value over the row's entries. -/
theorem multiReduction_max_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ X acc h hφ hacc (ix1 r)
      = (Finset.univ : Finset (Fin b)).fold max (Ideal.ofBits φ acc) (fun k => X (ix2 r k)) := by
  refine (Ideal.multiReduction_maximumf_single X acc h hφ hacc (ix1 r)).trans ?_
  have e : (X ∘ h.lift (ix1 r)) = fun k : Fin b => X (ix2 r k) := funext fun k => congrArg X (lift_row h r k)
  rw [e]
  rfl

/-- A row sum: the sum of the row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ X acc h hφ hacc (ix1 r) = ∑ k : Fin b, X (ix2 r k) := by
  refine (Ideal.multiReduction_add_single X acc h hφ hacc (ix1 r)).trans ?_
  exact Finset.sum_congr rfl fun k _ => congrArg X (lift_row h r k)

/-- Over result index `(p, r)`, the source index with `k` on the reduced last axis is `(p, r, k)`. -/
theorem lift_last3 {a b c : ℕ} (h : (⟨3, ![a, b, c]⟩ : Shape).Reduces [2] ⟨2, ![a, b]⟩) (p : Fin a) (r : Fin b) (k : Fin c) :
    h.lift (ix2 p r) k = ix3 p r k := by
  funext d
  apply Fin.ext
  match d with
  | ⟨0, _⟩ => rfl
  | ⟨1, _⟩ => rfl
  | ⟨2, _⟩ => rfl

/-- A host maximum over the last axis of a rank-3 array: the fold of `max` from the initial value over that axis. -/
theorem hostReduce_max_last3 {a b c : ℕ} {φ : FTy} {u : Shape} (X : FVec Ideal ⟨3, ![a, b, c]⟩ φ) (init : FVec Ideal u φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (r : Fin b) :
    Host.reduce (FloatOps.maximumf (F := Ideal) (φ := φ)) X init h' hu (ix2 p r)
      = (Finset.univ : Finset (Fin c)).fold max (init (Shape.Idx.first hu)) (fun k => X (ix3 p r k)) := by
  refine (Host.reduce_eq_fold_single (FloatOps.maximumf (F := Ideal) (φ := φ)) X init h' h hu (ix2 p r)).trans ?_
  have e : (X ∘ h.lift (ix2 p r)) = fun k : Fin c => X (ix3 p r k) := funext fun k => congrArg X (lift_last3 h p r k)
  rw [e]
  rfl

end Cert.Lib

end
-- ==== Proof.KernelRow.lean ====
/-
  What the kernel's body computes, entry by entry, on the extended reals.

  The body's two payloads are read at `(r, j)`: the first (layers one and two) is the rectified second layer of row
  `r` of the three input blocks, the second (layer three and the normalisation) the normalised third layer of a row of
  hidden values. Every entry of the result depends on ONE row of the source, destination and edge blocks and on the
  whole weight blocks: a matrix product into the zero accumulator is a sum over the contracted position, a bias row
  spread over the rows reads its one row, a row sum spread back over the row reads the row's sum.
-/
import proofs.«177719_j11527692222555_2_alg».proof.Proof.Gen.KernelIdeal.Skeleton
import proofs.«177719_j11527692222555_2_alg».proof.Proof.Spec
import proofs.«177719_j11527692222555_2_alg».proof.Proof.LibPlainDot
import proofs.«177719_j11527692222555_2_alg».proof.Proof.LibKeepdims
import proofs.«177719_j11527692222555_2_alg».proof.Proof.LibRowReduce
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.EdgeMlp.Kern

open Cert.KernelIdeal Cert.KernelIdeal.Gen Idealize.ShloMosaic Idealize.ShloMosaic.ValueIdx Cert.Lib Cert.EdgeMlp

/-- The three matrix products of the body have the plain dimension numbers. -/
theorem dot1_plain : dot_S4000x128_S128x256_S4000x256_1_0_0_1_n_n = DotDims.plain 4000 128 256 := rfl
theorem dot2_plain : dot_S4000x256_S256x256_S4000x256_1_0_0_1_n_n = DotDims.plain 4000 256 256 := rfl
theorem dot3_plain : dot_S4000x256_S256x128_S4000x128_1_0_0_1_n_n = DotDims.plain 4000 256 128 := rfl

/-- A reciprocal square root at an index is the extended reals' of the element. -/
theorem rsqrt_at {s : Shape} {φ : FTy} (v : FVec Ideal s φ) (i : s.Idx) : rsqrt v i = Ideal.rsqrt (v i) := rfl

/-- A scalar float constant is its word's value. -/
theorem scalar_ofBits_at (b : BitVec (FTy.bits .f32)) : (Scalar.ofBits .f32 b : Ideal .f32) = Ideal.ofBits .f32 b := rfl

/-- A row sum of a [4000, 128] block read at row `r`: the sum of the row's entries. (The accumulator's word is the zero
    word, which is the sum's neutral word.) -/
theorem rowSum_at (X : FVec Ideal S4000x128 .f32) (h : S4000x128.Reduces [1] S4000)
    (hφ : FTy.f32 = FTy.f32 ∨ FTy.f32 = FTy.bf16) (hacc : (0x00000000#32 : BitVec 32) = 0x00000000#32) (r : Fin 4000) :
    multiReduction .add [1] S4000 X 0x00000000#32 h hφ hacc (ix1 r) = ∑ k : Fin 128, X (ix2 r k) :=
  multiReduction_add_row X 0x00000000#32 h hφ hacc r

/-- Layers one and two at `(r, j)`. -/
theorem pay2_apply (v0 v2 : Vec Ideal S4000x128 .bf16) (v4 : Vec Ideal S4000x128 .f32) (v6 v9 v13 : Vec Ideal S128x256 .bf16)
    (v17 : Vec Ideal S1x256 .f32) (v24 : Vec Ideal S256x256 .bf16) (v27 : Vec Ideal S1x256 .f32) (r : Fin 4000) (j : Fin 256) :
    k0_pay2 (F := Ideal) v0 v2 v4 v6 v9 v13 v17 v24 v27 (ix2 r j)
      = relu0 (dense (fun k => relu0 (dense3 (fun k' => v0 (ix2 r k')) (fun k' => v2 (ix2 r k')) (fun k' => v4 (ix2 r k'))
          (fun a b => v6 (ix2 a b)) (fun a b => v9 (ix2 a b)) (fun a b => v13 (ix2 a b)) (fun b => v17 (ix2 (0 : Fin 1) b)) k))
          (fun a b => v24 (ix2 a b)) (fun b => v27 (ix2 (0 : Fin 1) b)) j) := by
  unfold k0_pay2
  simp only [dot1_plain, dot2_plain, shapeCast_self, truncf_apply, maximumf_apply, addf_apply, plain_matmul_zero_apply,
    broadcastTo_1b_ab_apply, broadcast_apply, scalar_ofBits_at]
  rfl

/-- Layer three and the normalisation at `(r, c)`, from a block of hidden values. -/
theorem pay1_apply (v33 : FVec Ideal S4000x256 .bf16) (v34 : Vec Ideal S256x128 .bf16) (v37 v57 v61 : Vec Ideal S1x128 .f32)
    (r : Fin 4000) (c : Fin 128) :
    k0_pay1 (F := Ideal) v33 v34 v37 v57 v61 (ix2 r c)
      = lnorm (dense (fun k => v33 (ix2 r k)) (fun a b => v34 (ix2 a b)) (fun b => v37 (ix2 (0 : Fin 1) b)))
          (fun b => v57 (ix2 (0 : Fin 1) b)) (fun b => v61 (ix2 (0 : Fin 1) b)) c := by
  unfold k0_pay1
  simp only [dot3_plain, shapeCast_self, addf_apply, mulf_apply, subf_apply, divf_apply, rsqrt_at,
    broadcastTo_1b_ab_apply, broadcastTo_a1_ab_apply, shapeCast_a_a1_apply, broadcast_apply,
    scalar_ofBits_at]
  rw [rowSum_at, rowSum_at]
  simp only [addf_apply, mulf_apply, subf_apply, divf_apply, broadcastTo_1b_ab_apply, broadcastTo_a1_ab_apply,
    shapeCast_a_a1_apply, broadcast_apply, plain_matmul_zero_apply]
  rw [rowSum_at]
  simp only [addf_apply, plain_matmul_zero_apply, broadcastTo_1b_ab_apply]
  rfl

/-- The body's result block at `(r, c)`: one edge's result row from row `r` of the three input blocks. -/
theorem body_apply (x0 x1 : Vec Ideal S4000x128 .bf16) (x2 : Vec Ideal S4000x128 .f32) (x3 x4 x5 : Vec Ideal S128x256 .bf16)
    (x6 : Vec Ideal S1x256 .f32) (x7 : Vec Ideal S256x256 .bf16) (x8 : Vec Ideal S1x256 .f32) (x9 : Vec Ideal S256x128 .bf16)
    (x10 x11 x12 : Vec Ideal S1x128 .f32) (r : Fin 4000) (c : Fin 128) :
    k0_pay1 (F := Ideal) (k0_pay2 (F := Ideal) x0 x1 x2 x3 x4 x5 x6 x7 x8) x9 x10 x11 x12 (ix2 r c)
      = rowOut (fun k => x0 (ix2 r k)) (fun k => x1 (ix2 r k)) (fun k => x2 (ix2 r k))
          (fun a b => x3 (ix2 a b)) (fun a b => x4 (ix2 a b)) (fun a b => x5 (ix2 a b)) (fun b => x6 (ix2 (0 : Fin 1) b))
          (fun a b => x7 (ix2 a b)) (fun b => x8 (ix2 (0 : Fin 1) b)) (fun a b => x9 (ix2 a b)) (fun b => x10 (ix2 (0 : Fin 1) b))
          (fun b => x11 (ix2 (0 : Fin 1) b)) (fun b => x12 (ix2 (0 : Fin 1) b)) c := by
  rw [pay1_apply]
  unfold rowOut
  congr 1
  funext j
  congr 1
  funext k
  exact pay2_apply x0 x1 x2 x3 x4 x5 x6 x7 x8 r k

/-- The body's result at `(r, c)` when row `r` of the three input blocks holds edge `e`'s source row, destination row
    and feature row, the weight blocks the three row blocks of the first matrix and the other two matrices, and the
    one-row blocks the biases, the scale and the shift: the specification's entry `(e, c)`. -/
theorem point_apply (x0 x1 : Vec Ideal S4000x128 .bf16) (x2 : Vec Ideal S4000x128 .f32) (x3 x4 x5 : Vec Ideal S128x256 .bf16)
    (x6 : Vec Ideal S1x256 .f32) (x7 : Vec Ideal S256x256 .bf16) (x8 : Vec Ideal S1x256 .f32) (x9 : Vec Ideal S256x128 .bf16)
    (x10 x11 x12 : Vec Ideal S1x128 .f32)
    (node : (⟨2, ![20000, 128]⟩ : Shape).Idx → EReal) (edge : (⟨2, ![640000, 128]⟩ : Shape).Idx → EReal)
    (eidx : (⟨2, ![2, 640000]⟩ : Shape).Idx → BitVec 32) (W1 : (⟨2, ![384, 256]⟩ : Shape).Idx → EReal)
    (b1 : (⟨1, ![256]⟩ : Shape).Idx → EReal) (W2 : (⟨2, ![256, 256]⟩ : Shape).Idx → EReal)
    (b2 : (⟨1, ![256]⟩ : Shape).Idx → EReal) (W3 : (⟨2, ![256, 128]⟩ : Shape).Idx → EReal)
    (b3 g be : (⟨1, ![128]⟩ : Shape).Idx → EReal) (r : Fin 4000) (c : Fin 128) (e : Fin 640000)
    (h0 : ∀ k : Fin 128, x0 (ix2 r k) = node (ix2 (clampRow (wrapIdx (eidx (ix2 (0 : Fin 2) e)))) k))
    (h1 : ∀ k : Fin 128, x1 (ix2 r k) = node (ix2 (clampRow (wrapIdx (eidx (ix2 (1 : Fin 2) e)))) k))
    (h2 : ∀ k : Fin 128, x2 (ix2 r k) = edge (ix2 e k))
    (h3 : ∀ (k : Fin 128) (j : Fin 256), x3 (ix2 k j) = W1 (ix2 (lo k) j))
    (h4 : ∀ (k : Fin 128) (j : Fin 256), x4 (ix2 k j) = W1 (ix2 (mid k) j))
    (h5 : ∀ (k : Fin 128) (j : Fin 256), x5 (ix2 k j) = W1 (ix2 (hi k) j))
    (h6 : ∀ j : Fin 256, x6 (ix2 (0 : Fin 1) j) = b1 (ix1 j))
    (h7 : ∀ (k : Fin 256) (j : Fin 256), x7 (ix2 k j) = W2 (ix2 k j))
    (h8 : ∀ j : Fin 256, x8 (ix2 (0 : Fin 1) j) = b2 (ix1 j))
    (h9 : ∀ (k : Fin 256) (j : Fin 128), x9 (ix2 k j) = W3 (ix2 k j))
    (h10 : ∀ j : Fin 128, x10 (ix2 (0 : Fin 1) j) = b3 (ix1 j))
    (h11 : ∀ j : Fin 128, x11 (ix2 (0 : Fin 1) j) = g (ix1 j))
    (h12 : ∀ j : Fin 128, x12 (ix2 (0 : Fin 1) j) = be (ix1 j)) :
    k0_pay1 (F := Ideal) (k0_pay2 (F := Ideal) x0 x1 x2 x3 x4 x5 x6 x7 x8) x9 x10 x11 x12 (ix2 r c)
      = edgeOut node edge eidx W1 b1 W2 b2 W3 b3 g be e c := by
  rw [body_apply]
  unfold edgeOut
  rw [funext h0, funext h1, funext h2, funext fun k => funext (h3 k), funext fun k => funext (h4 k),
    funext fun k => funext (h5 k), funext h6, funext fun k => funext (h7 k), funext h8, funext fun k => funext (h9 k),
    funext h10, funext h11, funext h12]

end Cert.EdgeMlp.Kern

end
-- ==== Proof.LibRowGather.lean ====
/-
  The gather of WHOLE ROWS of a matrix, read at an index.

  For a matrix `x : [N, C]` and an integer column `idx : [R, 1]`, the gather with offset axes `[1]`, collapsed slice
  axes `[0]`, start index map `[0]`, index vector axis `1` and slice sizes `[1, C]` is the matrix `[R, C]` whose
  element `(r, c)` is `x` at row `idx[r, 0]` — read as a signed integer and clamped into `[0, N − 1]`, as a gather
  clamps every start index so that the slice fits — and column `c`. The statement is general in the extents `N`, `R`,
  `C`, in the index width `w` and in the element type, and is meant to be reused: `rowGather_apply` for the dimension
  numbers written out (`rowGatherDims`), `rowGather_apply'` for ANY record of dimension numbers with those seven fields.
-/
import Idealize.ShloMosaic.PureOps.Ideal
import Idealize.ShloMosaic.Lib.ValueIdx

namespace Cert.Lib

open Idealize.ShloMosaic Idealize.ShloMosaic.ValueIdx

/-- The dimension numbers of a gather of whole rows: operand `[N, C]`, start indices `[R, 1]` (one row number per
    result row, on the index vector's axis `1`), result `[R, C]`; operand axis `0` is collapsed and is the one the
    start index addresses, operand axis `1` is the result's offset axis `1`, read whole (slice sizes `[1, C]`). Their
    conditions `wf` are decidable on literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. On operand axis `0` (collapsed, in the start index map) the operand index is the clamped start, with
    no batching and no offset part; on operand axis `1` (the offset axis, not in the start index map) the start is `0`
    and the index is the result's column. -/
theorem rowGather_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGatherDims N R C wf) x idx (ix2 r c)
      = x (ix2 (⟨min (idx (ix2 r (0 : Fin 1))).toInt.toNat (N - 1), by omega⟩ : Fin N) c) := by
  unfold Host.gather
  congr 1
  funext a
  refine Fin.ext ?_
  match a with
  | ⟨0, _⟩ =>
    show (rowGatherDims N R C wf).start (ix2 r c) idx 0 + (rowGatherDims N R C wf).batchCoord (ix2 r c) 0
        + (rowGatherDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 r c) ⟨List.idxOf (0 : Fin 2) (rowGatherDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N R C wf).start (ix2 r c) idx 1 + (rowGatherDims N R C wf).batchCoord (ix2 r c) 1
        + (rowGatherDims N R C wf).offCoord (ix2 r c) 1 = _
    rw [GatherDims.batchCoord_eq_zero _ _ _ List.not_mem_nil]
    have hst : (rowGatherDims N R C wf).start (ix2 r c) idx 1 = 0 := by
      unfold GatherDims.start
      rw [dif_neg (fun h => Nat.one_ne_zero (congrArg Fin.val (List.mem_singleton.mp h)))]
    have hmem : (1 : Fin 2) ∈ (rowGatherDims N R C wf).sKept :=
      (GatherDims.mem_sKept _ _).mpr ⟨fun h => Nat.one_ne_zero (congrArg Fin.val (List.mem_singleton.mp h)), List.not_mem_nil⟩
    have hoff : (rowGatherDims N R C wf).offCoord (ix2 r c) 1 = c.val := by
      unfold GatherDims.offCoord
      rw [dif_pos hmem]
      rfl
    rw [hst, hoff]
    simp only [Nat.add_zero, Nat.zero_add]

/-- The same for ANY record of gather dimension numbers over those three shapes whose fields are the row gather's (for a
    record given by its literal fields the seven equations hold by `rfl`). -/
theorem rowGather_apply' {α : Type} {N R C w : Nat} (hN : 0 < N)
    (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (r : Fin R) (c : Fin C) :
    Host.gather d x idx (ix2 r c)
      = x (ix2 (⟨min (idx (ix2 r (0 : Fin 1))).toInt.toNat (N - 1), by omega⟩ : Fin N) c) := by
  obtain ⟨od, cd, ob, sb, sm, iv, ss, wf⟩ := d
  simp only at h1 h2 h3 h4 h5 h6 h7
  subst h1 h2 h3 h4 h5 h6 h7
  exact rowGather_apply hN wf x idx r c

end Cert.Lib
-- ==== Proof.NodeRows.lean ====
/-
  What the program's operations before the kernel leave in the arrays the kernel reads, read at an index.

  The two rows of node numbers are laid end to end (sources first, destinations after), each number is normalised (a
  negative word has the node count added), and the node table's rows are gathered at them, each start index read signed
  and clamped into the table: row `p` of the gathered array, for `p` below 640000, is the node row of edge `p`'s source,
  and row `640000 + p` the node row of its destination. The first layer's matrix is cut into its three blocks of 128
  rows, and each bias row gets a leading unit axis. On the extended reals a change of float format is the identity.
-/
import proofs.«177719_j11527692222555_2_alg».proof.Proof.Gen.KernelIdeal
import proofs.«177719_j11527692222555_2_alg».proof.Proof.Spec
import proofs.«177719_j11527692222555_2_alg».proof.Proof.LibRowGather
import Idealize.ShloMosaic.Lib.ValueIdx
import Idealize.ShloMosaic.Lib.Pipeline.Value
import Idealize.ShloMosaic.Lib.ValueLayout

noncomputable section

namespace Cert.EdgeMlp.Host

open Cert.KernelIdeal Cert.KernelIdeal.Gen Idealize.ShloMosaic Idealize.ShloMosaic.ValueIdx Cert.EdgeMlp

/-! ## The node numbers, end to end -/

/-- The source numbers followed by the destination numbers, as one column of 1280000 words. -/
def catIdx (x2 : IVec S2x640000 32) : IVec S1280000 32 :=
  concatenate S1280000 0 [⟨S640000, shapeCast S640000 (extractStridedSlice S1x640000 ![0, 0] x2 slices_S2x640000_S1x640000_0_0) shapeCasts_S1x640000_S640000⟩, ⟨S640000, shapeCast S640000 (extractStridedSlice S1x640000 ![1, 0] x2 slices_S2x640000_S1x640000_1_0) shapeCasts_S1x640000_S640000⟩] concatenates_S640000_S640000_S1280000_d0

/-- The same column, each word normalised, with a trailing unit axis: the gather's start indices. -/
def idxCol (x2 : IVec S2x640000 32) : IVec S1280000x1 32 :=
  broadcastInDim S1280000x1 ![0] bcast_S1280000_S1280000x1_0 (select (cmpi .slt (catIdx x2) (broadcastInDim S1280000 ![] bcast_S_S1280000 (constantI S_ 32 0#32))) (addi (catIdx x2) (broadcastInDim S1280000 ![] bcast_S_S1280000 (constantI S_ 32 20000#32))) (catIdx x2))

/-- The node table's rows gathered at those start indices. -/
def gathered (x0 : FVec Ideal S20000x128 .f32) (x2 : IVec S2x640000 32) : FVec Ideal S1280000x128 .bf16 :=
  Host.gather gather_S20000x128_S1280000x1_S1280000x128_1_0_n_n_0_1_1128 (truncf .bf16 x0 bitsLt_bf16_f32) (idxCol x2)

/-- One row of the node numbers, cut out and flattened, reads that row. -/
theorem rowOf0 (x2 : IVec S2x640000 32) (p : Fin 640000) :
    shapeCast S640000 (extractStridedSlice S1x640000 ![0, 0] x2 slices_S2x640000_S1x640000_0_0) shapeCasts_S1x640000_S640000 (ix1 p)
      = x2 (ix2 (0 : Fin 2) p) := by
  rw [shapeCast_1a_a_apply]
  refine extractStridedSlice_apply ![0, 0] x2 slices_S2x640000_S1x640000_0_0 _ (ix2 (0 : Fin 2) p) (fun a => ?_)
  match a with
  | ⟨0, _⟩ => rfl
  | ⟨1, _⟩ => exact (Nat.zero_add _).symm

/-- The same for the second row. -/
theorem rowOf1 (x2 : IVec S2x640000 32) (p : Fin 640000) :
    shapeCast S640000 (extractStridedSlice S1x640000 ![1, 0] x2 slices_S2x640000_S1x640000_1_0) shapeCasts_S1x640000_S640000 (ix1 p)
      = x2 (ix2 (1 : Fin 2) p) := by
  rw [shapeCast_1a_a_apply]
  refine extractStridedSlice_apply ![1, 0] x2 slices_S2x640000_S1x640000_1_0 _ (ix2 (1 : Fin 2) p) (fun a => ?_)
  match a with
  | ⟨0, _⟩ => rfl
  | ⟨1, _⟩ => exact (Nat.zero_add _).symm

/-- Position `p` of the column, `p` below 640000, is edge `p`'s source number. -/
theorem catIdx_src (x2 : IVec S2x640000 32) (p : Fin 640000) :
    catIdx x2 (ix1 (⟨p.val, by omega⟩ : Fin 1280000)) = x2 (ix2 (0 : Fin 2) p) := by
  unfold catIdx
  refine (concatenate_pair_apply_left (s₁ := S640000) (s₂ := S640000) (0 : Fin 1) _ _ concatenates_S640000_S640000_S1280000_d0
    (ix1 (⟨p.val, by omega⟩ : Fin 1280000)) rfl (ix1 p) (fun b => ?_)).trans (rowOf0 x2 p)
  match b with
  | ⟨0, _⟩ => rfl

/-- Position `640000 + p` of the column is edge `p`'s destination number. -/
theorem catIdx_dst (x2 : IVec S2x640000 32) (p : Fin 640000) :
    catIdx x2 (ix1 (⟨640000 + p.val, by omega⟩ : Fin 1280000)) = x2 (ix2 (1 : Fin 2) p) := by
  unfold catIdx
  refine (concatenate_pair_apply_right (s₁ := S640000) (s₂ := S640000) (0 : Fin 1) _ _ concatenates_S640000_S640000_S1280000_d0
    (ix1 (⟨640000 + p.val, by omega⟩ : Fin 1280000)) rfl rfl (ix1 p) (fun b hb => ?_) ?_).trans (rowOf1 x2 p)
  · match b, hb with
    | ⟨0, _⟩, hb => exact absurd rfl hb
  · exact Nat.add_comm _ _

/-- The start index of row `p` is the column's word at `p`, normalised. -/
theorem idxCol_apply (x2 : IVec S2x640000 32) (p : Fin 1280000) :
    idxCol x2 (ix2 p (0 : Fin 1)) = wrapIdx (catIdx x2 (ix1 p)) := by
  unfold idxCol
  refine (broadcastInDim_apply _ bcast_S1280000_S1280000x1_0 _ (ix2 p (0 : Fin 1)) (ix1 p) (fun a => ?_)).trans ?_
  · match a with
    | ⟨0, _⟩ =>
      show p.val = if (1280000 : Nat) = 1 then 0 else p.val
      rw [if_neg (by decide)]
  · rfl

/-! ## The gathered rows -/

/-- Row `p` of the gathered array is the node table's row at the clamped, normalised word at `p`. -/
theorem gathered_apply (x0 : FVec Ideal S20000x128 .f32) (x2 : IVec S2x640000 32) (p : Fin 1280000) (k : Fin 128) :
    gathered x0 x2 (ix2 p k) = x0 (ix2 (clampRow (wrapIdx (catIdx x2 (ix1 p)))) k) := by
  unfold gathered
  refine (Cert.Lib.rowGather_apply' (by decide) gather_S20000x128_S1280000x1_S1280000x128_1_0_n_n_0_1_1128 rfl rfl rfl rfl rfl rfl rfl
    (truncf .bf16 x0 bitsLt_bf16_f32 : FVec Ideal S20000x128 .bf16) (idxCol x2) p k).trans ?_
  refine congrArg x0 (congrArg (fun r => ix2 r k) (Fin.ext ?_))
  show min (idxCol x2 (ix2 p (0 : Fin 1))).toInt.toNat (20000 - 1) = _
  rw [idxCol_apply]
  rfl

/-- The first 640000 rows of an array of 1280000 rows, read at `(e, k)`. -/
theorem firstHalf_apply (g : FVec Ideal S1280000x128 .bf16) (e : Fin 640000) (k : Fin 128) :
    extractStridedSlice S640000x128 ![0, 0] g slices_S1280000x128_S640000x128_0_0 (ix2 e k)
      = g (ix2 (⟨e.val, by omega⟩ : Fin 1280000) k) := by
  refine extractStridedSlice_apply ![0, 0] g slices_S1280000x128_S640000x128_0_0 (ix2 e k)
    (ix2 (⟨e.val, by omega⟩ : Fin 1280000) k) (fun a => ?_)
  match a with
  | ⟨0, _⟩ => exact (Nat.zero_add _).symm
  | ⟨1, _⟩ => exact (Nat.zero_add _).symm

/-- The last 640000 rows of an array of 1280000 rows, read at `(e, k)`. -/
theorem secondHalf_apply (g : FVec Ideal S1280000x128 .bf16) (e : Fin 640000) (k : Fin 128) :
    extractStridedSlice S640000x128 ![640000, 0] g slices_S1280000x128_S640000x128_640000_0 (ix2 e k)
      = g (ix2 (⟨640000 + e.val, by omega⟩ : Fin 1280000) k) := by
  refine extractStridedSlice_apply ![640000, 0] g slices_S1280000x128_S640000x128_640000_0 (ix2 e k)
    (ix2 (⟨640000 + e.val, by omega⟩ : Fin 1280000) k) (fun a => ?_)
  match a with
  | ⟨0, _⟩ => rfl
  | ⟨1, _⟩ => exact (Nat.zero_add _).symm

/-- The first half of the gathered array: edge `e`'s source row. -/
theorem src_apply (x0 : FVec Ideal S20000x128 .f32) (x2 : IVec S2x640000 32) (e : Fin 640000) (k : Fin 128) :
    extractStridedSlice S640000x128 ![0, 0] (gathered x0 x2) slices_S1280000x128_S640000x128_0_0 (ix2 e k)
      = x0 (ix2 (clampRow (wrapIdx (x2 (ix2 (0 : Fin 2) e)))) k) := by
  rw [firstHalf_apply, gathered_apply, catIdx_src]

/-- The second half of the gathered array: edge `e`'s destination row. -/
theorem dst_apply (x0 : FVec Ideal S20000x128 .f32) (x2 : IVec S2x640000 32) (e : Fin 640000) (k : Fin 128) :
    extractStridedSlice S640000x128 ![640000, 0] (gathered x0 x2) slices_S1280000x128_S640000x128_640000_0 (ix2 e k)
      = x0 (ix2 (clampRow (wrapIdx (x2 (ix2 (1 : Fin 2) e)))) k) := by
  rw [secondHalf_apply, gathered_apply, catIdx_dst]

/-! ## The three blocks of the first layer's matrix -/

/-- Rows 0 to 127 of the matrix. -/
theorem w1a_apply (x3 : FVec Ideal S384x256 .f32) (k : Fin 128) (j : Fin 256) :
    extractStridedSlice S128x256 ![0, 0] (truncf .bf16 x3 bitsLt_bf16_f32) slices_S384x256_S128x256_0_0 (ix2 k j) = x3 (ix2 (lo k) j) := by
  refine extractStridedSlice_apply ![0, 0] (truncf .bf16 x3 bitsLt_bf16_f32 : FVec Ideal S384x256 .bf16)
    slices_S384x256_S128x256_0_0 (ix2 k j) (ix2 (lo k) j) (fun a => ?_)
  match a with
  | ⟨0, _⟩ => exact (Nat.zero_add _).symm
  | ⟨1, _⟩ => exact (Nat.zero_add _).symm

/-- Rows 128 to 255 of the matrix. -/
theorem w1b_apply (x3 : FVec Ideal S384x256 .f32) (k : Fin 128) (j : Fin 256) :
    extractStridedSlice S128x256 ![128, 0] (truncf .bf16 x3 bitsLt_bf16_f32) slices_S384x256_S128x256_128_0 (ix2 k j) = x3 (ix2 (mid k) j) := by
  refine extractStridedSlice_apply ![128, 0] (truncf .bf16 x3 bitsLt_bf16_f32 : FVec Ideal S384x256 .bf16)
    slices_S384x256_S128x256_128_0 (ix2 k j) (ix2 (mid k) j) (fun a => ?_)
  match a with
  | ⟨0, _⟩ => rfl
  | ⟨1, _⟩ => exact (Nat.zero_add _).symm

/-- Rows 256 to 383 of the matrix. -/
theorem w1c_apply (x3 : FVec Ideal S384x256 .f32) (k : Fin 128) (j : Fin 256) :
    extractStridedSlice S128x256 ![256, 0] (truncf .bf16 x3 bitsLt_bf16_f32) slices_S384x256_S128x256_256_0 (ix2 k j) = x3 (ix2 (hi k) j) := by
  refine extractStridedSlice_apply ![256, 0] (truncf .bf16 x3 bitsLt_bf16_f32 : FVec Ideal S384x256 .bf16)
    slices_S384x256_S128x256_256_0 (ix2 k j) (ix2 (hi k) j) (fun a => ?_)
  match a with
  | ⟨0, _⟩ => rfl
  | ⟨1, _⟩ => exact (Nat.zero_add _).symm

/-! ## The bias rows -/

/-- A bias of 256 entries as one row. -/
theorem bias256_apply (x : FVec Ideal S256 .f32) (j : Fin 256) :
    shapeCast S1x256 x shapeCasts_S256_S1x256 (ix2 (0 : Fin 1) j) = x (ix1 j) :=
  shapeCast_a_1a_apply x shapeCasts_S256_S1x256 0 j

/-- A vector of 128 entries as one row. -/
theorem bias128_apply (x : FVec Ideal S128 .f32) (j : Fin 128) :
    shapeCast S1x128 x shapeCasts_S128_S1x128 (ix2 (0 : Fin 1) j) = x (ix1 j) :=
  shapeCast_a_1a_apply x shapeCasts_S128_S1x128 0 j

end Cert.EdgeMlp.Host

end
-- ==== Proof.Blocks.lean ====
/-
  From blocks to the array.

  The grid has 160 points; point `t` reads rows `4000 t … 4000 t + 3999` of the gathered source rows, of the gathered
  destination rows and of the edge features, and the whole of every weight, bias, scale and shift array, and writes
  rows `4000 t … 4000 t + 3999` of the result. Before the grid runs, the host code has gathered the node table's rows
  at the source and destination numbers (one gather over the two index columns joined end to end, then cut in two),
  cut the first weight matrix into its three row blocks and given each bias, the scale and the shift a leading unit
  axis. So what point `t` writes back is rows `4000 t …` of the specification's array `G` of the arguments, and the 160
  blocks cover the array: the result array ends holding `G`.
-/
import proofs.«177719_j11527692222555_2_alg».proof.Proof.Gen.KernelIdeal.Value
import proofs.«177719_j11527692222555_2_alg».proof.Proof.KernelRow
import proofs.«177719_j11527692222555_2_alg».proof.Proof.NodeRows
import Idealize.ShloMosaic.Lib.StableHlo.Run
import Idealize.ShloMosaic.Lib.Pipeline.Value

noncomputable section

namespace Cert.EdgeMlp.Blocks

open Cert.KernelIdeal Cert.KernelIdeal.Gen Idealize.ShloMosaic Idealize.ShloMosaic.TcCoe Idealize.SL.Sem Idealize.ShloMosaic.ValueIdx
open Cert.EdgeMlp Cert.EdgeMlp.Kern Cert.EdgeMlp.Host
open Idealize.ShloMosaic.Pipeline (Dat)

variable (m : (ℓ : Loc nD τ sig) → Buf (Elt Ideal) ℓ) (ρ : Dev nD → PrngReg)

/-! ## The arrays the grid finds -/

set_option maxHeartbeats 2000000 in
/-- The gathered source rows: the first half of the one gather. -/
theorem V_src (c : Dev nD) : (V m c main_v13 : S640000x128.Idx → EReal)
    = extractStridedSlice S640000x128 ![0, 0] (gathered (m ((c : Thread nD τ).loc main_arg0)) (m ((c : Thread nD τ).loc main_arg2))) slices_S1280000x128_S640000x128_0_0 := by
  dsimp only [V, hostOps0]
  after_results <;> rfl

set_option maxHeartbeats 2000000 in
/-- The gathered destination rows: the second half. -/
theorem V_dst (c : Dev nD) : (V m c main_v14 : S640000x128.Idx → EReal)
    = extractStridedSlice S640000x128 ![640000, 0] (gathered (m ((c : Thread nD τ).loc main_arg0)) (m ((c : Thread nD τ).loc main_arg2))) slices_S1280000x128_S640000x128_640000_0 := by
  dsimp only [V, hostOps0]
  after_results <;> rfl

/-- The three row blocks of the first weight matrix. -/
theorem V_w1a (c : Dev nD) : (V m c main_v16 : S128x256.Idx → EReal)
    = extractStridedSlice S128x256 ![0, 0] (truncf .bf16 ((m ((c : Thread nD τ).loc main_arg3)) : FVec Ideal S384x256 .f32) bitsLt_bf16_f32 : FVec Ideal S384x256 .bf16) slices_S384x256_S128x256_0_0 := by
  dsimp only [V, hostOps0]
  after_results <;> rfl
theorem V_w1b (c : Dev nD) : (V m c main_v17 : S128x256.Idx → EReal)
    = extractStridedSlice S128x256 ![128, 0] (truncf .bf16 ((m ((c : Thread nD τ).loc main_arg3)) : FVec Ideal S384x256 .f32) bitsLt_bf16_f32 : FVec Ideal S384x256 .bf16) slices_S384x256_S128x256_128_0 := by
  dsimp only [V, hostOps0]
  after_results <;> rfl
theorem V_w1c (c : Dev nD) : (V m c main_v18 : S128x256.Idx → EReal)
    = extractStridedSlice S128x256 ![256, 0] (truncf .bf16 ((m ((c : Thread nD τ).loc main_arg3)) : FVec Ideal S384x256 .f32) bitsLt_bf16_f32 : FVec Ideal S384x256 .bf16) slices_S384x256_S128x256_256_0 := by
  dsimp only [V, hostOps0]
  after_results <;> rfl

/-- The second and third weight matrices, their format changed (the identity on extended reals). -/
theorem V_w2 (c : Dev nD) : (V m c main_v19 : S256x256.Idx → EReal) = (m ((c : Thread nD τ).loc main_arg5)) := by
  dsimp only [V, hostOps0]
  after_results <;> rfl
theorem V_w3 (c : Dev nD) : (V m c main_v20 : S256x128.Idx → EReal) = (m ((c : Thread nD τ).loc main_arg7)) := by
  dsimp only [V, hostOps0]
  after_results <;> rfl

/-- The biases, the scale and the shift, each with a leading unit axis. -/
theorem V_b1 (c : Dev nD) : (V m c main_v21 : S1x256.Idx → EReal) = shapeCast S1x256 (m ((c : Thread nD τ).loc main_arg4)) shapeCasts_S256_S1x256 := by
  dsimp only [V, hostOps0]
  after_results <;> rfl
theorem V_b2 (c : Dev nD) : (V m c main_v22 : S1x256.Idx → EReal) = shapeCast S1x256 (m ((c : Thread nD τ).loc main_arg6)) shapeCasts_S256_S1x256 := by
  dsimp only [V, hostOps0]
  after_results <;> rfl
theorem V_b3 (c : Dev nD) : (V m c main_v23 : S1x128.Idx → EReal) = shapeCast S1x128 (m ((c : Thread nD τ).loc main_arg8)) shapeCasts_S128_S1x128 := by
  dsimp only [V, hostOps0]
  after_results <;> rfl
theorem V_g (c : Dev nD) : (V m c main_v24 : S1x128.Idx → EReal) = shapeCast S1x128 (m ((c : Thread nD τ).loc main_arg9)) shapeCasts_S128_S1x128 := by
  dsimp only [V, hostOps0]
  after_results <;> rfl
theorem V_be (c : Dev nD) : (V m c main_v25 : S1x128.Idx → EReal) = shapeCast S1x128 (m ((c : Thread nD τ).loc main_arg10)) shapeCasts_S128_S1x128 := by
  dsimp only [V, hostOps0]
  after_results <;> rfl

/-! ## What a point writes back -/

theorem hz : (![0, 0] : Fin 2 → Nat) = fun _ => 0 := funext fun a => by fin_cases a <;> rfl

/-- The specification's array of the arguments in memory. -/
abbrev Gm (c : Dev nD) : S640000x128.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The printed index maps over the 160 points: the three row windows move with the result's window, on block rows
    only; the weight, bias, scale and shift windows stay at their one block. -/
theorem idx_facts : ∀ t : Fin cfg0.N,
    win0_0.index t (0 : Fin 2) = win0_13.index t (0 : Fin 2) ∧ win0_0.index t (1 : Fin 2) = 0
    ∧ win0_1.index t (0 : Fin 2) = win0_13.index t (0 : Fin 2) ∧ win0_1.index t (1 : Fin 2) = 0
    ∧ win0_2.index t (0 : Fin 2) = win0_13.index t (0 : Fin 2) ∧ win0_2.index t (1 : Fin 2) = 0
    ∧ win0_13.index t (1 : Fin 2) = 0 ∧ win0_13.index t (0 : Fin 2) ≤ 159
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] :=
  (by decide +kernel : ∀ t : Fin grid0.N, _)

/-- Every block row of the result is some point's. -/
theorem idx_onto : ∀ q : Fin 160, ∃ t : Fin cfg0.N, win0_13.index t = ![q.val, 0] :=
  (by decide +kernel : ∀ q : Fin 160, ∃ t : Fin grid0.N, win0_13.index t = ![q.val, 0])

/-- Row `r` of the source window's block is the node table's row at edge `E`'s source number. -/
theorem blk_src (c : Dev nD) (t : Fin cfg0.N) (r : Fin 4000) (k : Fin 128) (E : Fin 640000)
    (hE : E.val = win0_13.index t (0 : Fin 2) * 4000 + r.val) :
    iblk m c 0 t (ix2 r k) = (m ((c : Thread nD τ).loc main_arg0)) (ix2 (clampRow (wrapIdx ((m ((c : Thread nD τ).loc main_arg2)) (ix2 (0 : Fin 2) E)))) k) := by
  obtain ⟨e0, e0', e1, e1', e2, e2', e13, hle, e3, e4, e5, e6, e7, e8, e9, e10, e11, e12⟩ := idx_facts t
  show V m c main_v13 (((cfg0.win 0).blk t).view.emb (ix2 r k)) = _
  have hk : ((cfg0.win 0).blk t).view.emb (ix2 r k) = ix2 E k := by
    funext a; apply Fin.ext
    match a with
    | ⟨0, _⟩ => show win0_0.index t (0 : Fin 2) * 4000 + 1 * r.val = E.val; omega
    | ⟨1, _⟩ => show win0_0.index t (1 : Fin 2) * 128 + 1 * k.val = k.val; omega
  rw [hk, V_src, src_apply]

/-- Row `r` of the destination window's block is the node table's row at edge `E`'s destination number. -/
theorem blk_dst (c : Dev nD) (t : Fin cfg0.N) (r : Fin 4000) (k : Fin 128) (E : Fin 640000)
    (hE : E.val = win0_13.index t (0 : Fin 2) * 4000 + r.val) :
    iblk m c 1 t (ix2 r k) = (m ((c : Thread nD τ).loc main_arg0)) (ix2 (clampRow (wrapIdx ((m ((c : Thread nD τ).loc main_arg2)) (ix2 (1 : Fin 2) E)))) k) := by
  obtain ⟨e0, e0', e1, e1', e2, e2', e13, hle, e3, e4, e5, e6, e7, e8, e9, e10, e11, e12⟩ := idx_facts t
  show V m c main_v14 (((cfg0.win 1).blk t).view.emb (ix2 r k)) = _
  have hk : ((cfg0.win 1).blk t).view.emb (ix2 r k) = ix2 E k := by
    funext a; apply Fin.ext
    match a with
    | ⟨0, _⟩ => show win0_1.index t (0 : Fin 2) * 4000 + 1 * r.val = E.val; omega
    | ⟨1, _⟩ => show win0_1.index t (1 : Fin 2) * 128 + 1 * k.val = k.val; omega
  rw [hk, V_dst, dst_apply]

/-- Row `r` of the edge window's block is edge `E`'s feature row. -/
theorem blk_edge (c : Dev nD) (t : Fin cfg0.N) (r : Fin 4000) (k : Fin 128) (E : Fin 640000)
    (hE : E.val = win0_13.index t (0 : Fin 2) * 4000 + r.val) :
    iblk m c 2 t (ix2 r k) = (m ((c : Thread nD τ).loc main_arg1)) (ix2 E k) := by
  obtain ⟨e0, e0', e1, e1', e2, e2', e13, hle, e3, e4, e5, e6, e7, e8, e9, e10, e11, e12⟩ := idx_facts t
  show V m c main_arg1 (((cfg0.win 2).blk t).view.emb (ix2 r k)) = _
  have hk : ((cfg0.win 2).blk t).view.emb (ix2 r k) = ix2 E k := by
    funext a; apply Fin.ext
    match a with
    | ⟨0, _⟩ => show win0_2.index t (0 : Fin 2) * 4000 + 1 * r.val = E.val; omega
    | ⟨1, _⟩ => show win0_2.index t (1 : Fin 2) * 128 + 1 * k.val = k.val; omega
  rw [hk, V_main_arg1]

/-- The first weight window's one block is the first third of the first matrix's rows. -/
theorem blk_w1a (c : Dev nD) (t : Fin cfg0.N) (k : Fin 128) (j : Fin 256) :
    iblk m c 3 t (ix2 k j) = (m ((c : Thread nD τ).loc main_arg3)) (ix2 (lo k) j) := by
  obtain ⟨e0, e0', e1, e1', e2, e2', e13, hle, e3, e4, e5, e6, e7, e8, e9, e10, e11, e12⟩ := idx_facts t
  show V m c main_v16 (((cfg0.win 3).blk t).view.emb (ix2 k j)) = _
  have q0 : win0_3.index t (0 : Fin 2) = 0 := congrFun e3 0
  have q1 : win0_3.index t (1 : Fin 2) = 0 := congrFun e3 1
  have hk : ((cfg0.win 3).blk t).view.emb (ix2 k j) = ix2 k j := by
    funext a; apply Fin.ext
    match a with
    | ⟨0, _⟩ => show win0_3.index t (0 : Fin 2) * 128 + 1 * k.val = k.val; omega
    | ⟨1, _⟩ => show win0_3.index t (1 : Fin 2) * 256 + 1 * j.val = j.val; omega
  rw [hk, V_w1a, w1a_apply]

/-- The second weight window's one block is the second third. -/
theorem blk_w1b (c : Dev nD) (t : Fin cfg0.N) (k : Fin 128) (j : Fin 256) :
    iblk m c 4 t (ix2 k j) = (m ((c : Thread nD τ).loc main_arg3)) (ix2 (mid k) j) := by
  obtain ⟨e0, e0', e1, e1', e2, e2', e13, hle, e3, e4, e5, e6, e7, e8, e9, e10, e11, e12⟩ := idx_facts t
  show V m c main_v17 (((cfg0.win 4).blk t).view.emb (ix2 k j)) = _
  have q0 : win0_4.index t (0 : Fin 2) = 0 := congrFun e4 0
  have q1 : win0_4.index t (1 : Fin 2) = 0 := congrFun e4 1
  have hk : ((cfg0.win 4).blk t).view.emb (ix2 k j) = ix2 k j := by
    funext a; apply Fin.ext
    match a with
    | ⟨0, _⟩ => show win0_4.index t (0 : Fin 2) * 128 + 1 * k.val = k.val; omega
    | ⟨1, _⟩ => show win0_4.index t (1 : Fin 2) * 256 + 1 * j.val = j.val; omega
  rw [hk, V_w1b, w1b_apply]

/-- The third weight window's one block is the last third. -/
theorem blk_w1c (c : Dev nD) (t : Fin cfg0.N) (k : Fin 128) (j : Fin 256) :
    iblk m c 5 t (ix2 k j) = (m ((c : Thread nD τ).loc main_arg3)) (ix2 (hi k) j) := by
  obtain ⟨e0, e0', e1, e1', e2, e2', e13, hle, e3, e4, e5, e6, e7, e8, e9, e10, e11, e12⟩ := idx_facts t
  show V m c main_v18 (((cfg0.win 5).blk t).view.emb (ix2 k j)) = _
  have q0 : win0_5.index t (0 : Fin 2) = 0 := congrFun e5 0
  have q1 : win0_5.index t (1 : Fin 2) = 0 := congrFun e5 1
  have hk : ((cfg0.win 5).blk t).view.emb (ix2 k j) = ix2 k j := by
    funext a; apply Fin.ext
    match a with
    | ⟨0, _⟩ => show win0_5.index t (0 : Fin 2) * 128 + 1 * k.val = k.val; omega
    | ⟨1, _⟩ => show win0_5.index t (1 : Fin 2) * 256 + 1 * j.val = j.val; omega
  rw [hk, V_w1c, w1c_apply]

/-- The first bias window's one row is the first bias. -/
theorem blk_b1 (c : Dev nD) (t : Fin cfg0.N) (j : Fin 256) :
    iblk m c 6 t (ix2 (0 : Fin 1) j) = (m ((c : Thread nD τ).loc main_arg4)) (ix1 j) := by
  obtain ⟨e0, e0', e1, e1', e2, e2', e13, hle, e3, e4, e5, e6, e7, e8, e9, e10, e11, e12⟩ := idx_facts t
  show V m c main_v21 (((cfg0.win 6).blk t).view.emb (ix2 (0 : Fin 1) j)) = _
  have q0 : win0_6.index t (0 : Fin 2) = 0 := congrFun e6 0
  have q1 : win0_6.index t (1 : Fin 2) = 0 := congrFun e6 1
  have hk : ((cfg0.win 6).blk t).view.emb (ix2 (0 : Fin 1) j) = ix2 (0 : Fin 1) j := by
    funext a; apply Fin.ext
    match a with
    | ⟨0, _⟩ => show win0_6.index t (0 : Fin 2) * 1 + 1 * 0 = 0; omega
    | ⟨1, _⟩ => show win0_6.index t (1 : Fin 2) * 256 + 1 * j.val = j.val; omega
  rw [hk, V_b1, bias256_apply]

/-- The second matrix's window holds the second matrix. -/
theorem blk_w2 (c : Dev nD) (t : Fin cfg0.N) (k : Fin 256) (j : Fin 256) :
    iblk m c 7 t (ix2 k j) = (m ((c : Thread nD τ).loc main_arg5)) (ix2 k j) := by
  obtain ⟨e0, e0', e1, e1', e2, e2', e13, hle, e3, e4, e5, e6, e7, e8, e9, e10, e11, e12⟩ := idx_facts t
  show V m c main_v19 (((cfg0.win 7).blk t).view.emb (ix2 k j)) = _
  have q0 : win0_7.index t (0 : Fin 2) = 0 := congrFun e7 0
  have q1 : win0_7.index t (1 : Fin 2) = 0 := congrFun e7 1
  have hk : ((cfg0.win 7).blk t).view.emb (ix2 k j) = ix2 k j := by
    funext a; apply Fin.ext
    match a with
    | ⟨0, _⟩ => show win0_7.index t (0 : Fin 2) * 256 + 1 * k.val = k.val; omega
    | ⟨1, _⟩ => show win0_7.index t (1 : Fin 2) * 256 + 1 * j.val = j.val; omega
  rw [hk, V_w2]

/-- The second bias window's one row is the second bias. -/
theorem blk_b2 (c : Dev nD) (t : Fin cfg0.N) (j : Fin 256) :
    iblk m c 8 t (ix2 (0 : Fin 1) j) = (m ((c : Thread nD τ).loc main_arg6)) (ix1 j) := by
  obtain ⟨e0, e0', e1, e1', e2, e2', e13, hle, e3, e4, e5, e6, e7, e8, e9, e10, e11, e12⟩ := idx_facts t
  show V m c main_v22 (((cfg0.win 8).blk t).view.emb (ix2 (0 : Fin 1) j)) = _
  have q0 : win0_8.index t (0 : Fin 2) = 0 := congrFun e8 0
  have q1 : win0_8.index t (1 : Fin 2) = 0 := congrFun e8 1
  have hk : ((cfg0.win 8).blk t).view.emb (ix2 (0 : Fin 1) j) = ix2 (0 : Fin 1) j := by
    funext a; apply Fin.ext
    match a with
    | ⟨0, _⟩ => show win0_8.index t (0 : Fin 2) * 1 + 1 * 0 = 0; omega
    | ⟨1, _⟩ => show win0_8.index t (1 : Fin 2) * 256 + 1 * j.val = j.val; omega
  rw [hk, V_b2, bias256_apply]

/-- The third matrix's window holds the third matrix. -/
theorem blk_w3 (c : Dev nD) (t : Fin cfg0.N) (k : Fin 256) (j : Fin 128) :
    iblk m c 9 t (ix2 k j) = (m ((c : Thread nD τ).loc main_arg7)) (ix2 k j) := by
  obtain ⟨e0, e0', e1, e1', e2, e2', e13, hle, e3, e4, e5, e6, e7, e8, e9, e10, e11, e12⟩ := idx_facts t
  show V m c main_v20 (((cfg0.win 9).blk t).view.emb (ix2 k j)) = _
  have q0 : win0_9.index t (0 : Fin 2) = 0 := congrFun e9 0
  have q1 : win0_9.index t (1 : Fin 2) = 0 := congrFun e9 1
  have hk : ((cfg0.win 9).blk t).view.emb (ix2 k j) = ix2 k j := by
    funext a; apply Fin.ext
    match a with
    | ⟨0, _⟩ => show win0_9.index t (0 : Fin 2) * 256 + 1 * k.val = k.val; omega
    | ⟨1, _⟩ => show win0_9.index t (1 : Fin 2) * 128 + 1 * j.val = j.val; omega
  rw [hk, V_w3]

/-- The third bias window's one row is the third bias. -/
theorem blk_b3 (c : Dev nD) (t : Fin cfg0.N) (j : Fin 128) :
    iblk m c 10 t (ix2 (0 : Fin 1) j) = (m ((c : Thread nD τ).loc main_arg8)) (ix1 j) := by
  obtain ⟨e0, e0', e1, e1', e2, e2', e13, hle, e3, e4, e5, e6, e7, e8, e9, e10, e11, e12⟩ := idx_facts t
  show V m c main_v23 (((cfg0.win 10).blk t).view.emb (ix2 (0 : Fin 1) j)) = _
  have q0 : win0_10.index t (0 : Fin 2) = 0 := congrFun e10 0
  have q1 : win0_10.index t (1 : Fin 2) = 0 := congrFun e10 1
  have hk : ((cfg0.win 10).blk t).view.emb (ix2 (0 : Fin 1) j) = ix2 (0 : Fin 1) j := by
    funext a; apply Fin.ext
    match a with
    | ⟨0, _⟩ => show win0_10.index t (0 : Fin 2) * 1 + 1 * 0 = 0; omega
    | ⟨1, _⟩ => show win0_10.index t (1 : Fin 2) * 128 + 1 * j.val = j.val; omega
  rw [hk, V_b3, bias128_apply]

/-- The scale window's one row is the scale. -/
theorem blk_g (c : Dev nD) (t : Fin cfg0.N) (j : Fin 128) :
    iblk m c 11 t (ix2 (0 : Fin 1) j) = (m ((c : Thread nD τ).loc main_arg9)) (ix1 j) := by
  obtain ⟨e0, e0', e1, e1', e2, e2', e13, hle, e3, e4, e5, e6, e7, e8, e9, e10, e11, e12⟩ := idx_facts t
  show V m c main_v24 (((cfg0.win 11).blk t).view.emb (ix2 (0 : Fin 1) j)) = _
  have q0 : win0_11.index t (0 : Fin 2) = 0 := congrFun e11 0
  have q1 : win0_11.index t (1 : Fin 2) = 0 := congrFun e11 1
  have hk : ((cfg0.win 11).blk t).view.emb (ix2 (0 : Fin 1) j) = ix2 (0 : Fin 1) j := by
    funext a; apply Fin.ext
    match a with
    | ⟨0, _⟩ => show win0_11.index t (0 : Fin 2) * 1 + 1 * 0 = 0; omega
    | ⟨1, _⟩ => show win0_11.index t (1 : Fin 2) * 128 + 1 * j.val = j.val; omega
  rw [hk, V_g, bias128_apply]

/-- The shift window's one row is the shift. -/
theorem blk_be (c : Dev nD) (t : Fin cfg0.N) (j : Fin 128) :
    iblk m c 12 t (ix2 (0 : Fin 1) j) = (m ((c : Thread nD τ).loc main_arg10)) (ix1 j) := by
  obtain ⟨e0, e0', e1, e1', e2, e2', e13, hle, e3, e4, e5, e6, e7, e8, e9, e10, e11, e12⟩ := idx_facts t
  show V m c main_v25 (((cfg0.win 12).blk t).view.emb (ix2 (0 : Fin 1) j)) = _
  have q0 : win0_12.index t (0 : Fin 2) = 0 := congrFun e12 0
  have q1 : win0_12.index t (1 : Fin 2) = 0 := congrFun e12 1
  have hk : ((cfg0.win 12).blk t).view.emb (ix2 (0 : Fin 1) j) = ix2 (0 : Fin 1) j := by
    funext a; apply Fin.ext
    match a with
    | ⟨0, _⟩ => show win0_12.index t (0 : Fin 2) * 1 + 1 * 0 = 0; omega
    | ⟨1, _⟩ => show win0_12.index t (1 : Fin 2) * 128 + 1 * j.val = j.val; omega
  rw [hk, V_be, bias128_apply]

/-- WHAT POINT `t` WRITES BACK is block `t` of the specification's array: row `r` of the point's three row blocks is
    row `4000·(block row) + r` of the gathered source rows, the gathered destination rows and the edge features. -/
theorem flushed_eq (c : Dev nD) (t : Fin cfg0.N) :
    (dats m 0 c).flushed 13 t = ((cfg0.win 13).blk t).view.read (Elt Ideal) (Gm m c) := by
  rw [Cert.KernelIdeal.Value.flushed13]
  unfold out0_13
  rw [View.canon_unit_zero hz]
  simp only [View.ld_unit_zero (S := S4000x128) hz, View.ld_unit_zero (S := S128x256) hz, View.ld_unit_zero (S := S1x256) hz,
    View.ld_unit_zero (S := S256x256) hz, View.ld_unit_zero (S := S256x128) hz, View.ld_unit_zero (S := S1x128) hz]
  obtain ⟨e0, e0', e1, e1', e2, e2', e13, hle, e3, e4, e5, e6, e7, e8, e9, e10, e11, e12⟩ := idx_facts t
  funext y
  obtain ⟨r, cc, rfl⟩ : ∃ (r : Fin 4000) (cc : Fin 128), y = ix2 r cc := ⟨y 0, y 1, eq_ix2 y⟩
  have hr : r.val < 4000 := r.isLt
  obtain ⟨E, hE⟩ : ∃ E : Fin 640000, E.val = win0_13.index t (0 : Fin 2) * 4000 + r.val :=
    ⟨⟨win0_13.index t (0 : Fin 2) * 4000 + r.val, by omega⟩, rfl⟩
  have hemb : ((cfg0.win 13).blk t).view.emb (ix2 r cc) = ix2 E cc := by
    funext a; apply Fin.ext
    match a with
    | ⟨0, _⟩ => show win0_13.index t (0 : Fin 2) * 4000 + 1 * r.val = E.val; omega
    | ⟨1, _⟩ => show win0_13.index t (1 : Fin 2) * 128 + 1 * cc.val = cc.val; omega
  show k0_pay1 (F := Ideal) (k0_pay2 (F := Ideal) (iblk m c 0 t) (iblk m c 1 t) (iblk m c 2 t) (iblk m c 3 t) (iblk m c 4 t) (iblk m c 5 t)
        (iblk m c 6 t) (iblk m c 7 t) (iblk m c 8 t)) (iblk m c 9 t) (iblk m c 10 t) (iblk m c 11 t) (iblk m c 12 t) (ix2 r cc)
      = Gm m c (((cfg0.win 13).blk t).view.emb (ix2 r cc))
  rw [hemb]
  exact point_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) r cc E
    (fun k => blk_src m c t r k E hE) (fun k => blk_dst m c t r k E hE) (fun k => blk_edge m c t r k E hE)
    (blk_w1a m c t) (blk_w1b m c t) (blk_w1c m c t) (blk_b1 m c t) (blk_w2 m c t) (blk_b2 m c t) (blk_w3 m c t)
    (blk_b3 m c t) (blk_g m c t) (blk_be m c t)

/-! ## The blocks cover the array -/

/-- An index of the result array is in point `t`'s block iff each coordinate is in the block's range on its axis. -/
theorem mem_blk (t : Fin cfg0.N) (i : S640000x128.Idx) :
    i ∈ ((cfg0.win 13).blk t).view.set ↔ ∀ a : Fin 2, win0_13.index t a * S4000x128.size a ≤ (i a).val
      ∧ (i a).val < win0_13.index t a * S4000x128.size a + S4000x128.size a := by
  show i ∈ ((View.whole main_v26).slice (win0_13.rect t)).set ↔ _
  rw [View.set_slice_whole, Rect.mem_set_unit]
  exact Iff.rfl

/-- Every index of the result array is in some point's block: row `e` is in the block of the point whose block row is
    `e / 4000`. -/
theorem cover (i : S640000x128.Idx) :
    ∃ t : Fin cfg0.N, (cfg0.win 13).flush t = true ∧ i ∈ ((cfg0.win 13).blk t).view.set := by
  have hi0 : (i 0).val < 640000 := (i 0).isLt
  have hi1 : (i 1).val < 128 := (i 1).isLt
  obtain ⟨t, ht⟩ := idx_onto ⟨(i 0).val / 4000, by omega⟩
  have q0 : win0_13.index t (0 : Fin 2) = (i 0).val / 4000 := congrFun ht 0
  have q1 : win0_13.index t (1 : Fin 2) = 0 := congrFun ht 1
  refine ⟨t, flush0_13 t, ?_⟩
  rw [mem_blk]
  intro a
  match a with
  | ⟨0, _⟩ =>
    show win0_13.index t (0 : Fin 2) * 4000 ≤ (i 0).val ∧ (i 0).val < win0_13.index t (0 : Fin 2) * 4000 + 4000
    omega
  | ⟨1, _⟩ =>
    show win0_13.index t (1 : Fin 2) * 128 ≤ (i 1).val ∧ (i 1).val < win0_13.index t (1 : Fin 2) * 128 + 128
    omega

/-- THE RESULT ARRAY after the run is the specification's array of the arguments. -/
theorem final (c : Dev nD) : (dats m 0 c).arrAt 13 cfg0.N = Gm m c :=
  (dats m 0 c).arrAt_eq_of_cover 13 (Gm m c) (fun t _ => flushed_eq m c t) cover

/-! ## The run, read -/

/-- Every weakly fair execution of the kernel's program ends with the result array at the specification's array of the
    arguments and the arguments unchanged. -/
theorem run : θ_run defs (onTc (τ := τ) (main (F := Ideal))) ⟨m, fun _ => 0, ρ⟩ fun r => ∀ c : Dev nD,
      r.2.mem ((c : Thread nD τ).loc main_v26) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.EdgeMlp.Blocks

end
-- ==== Proof.RefRow.lean ====
/-
  The reference program, one edge at a time, is the specification.

  The reference normalises the two columns of node numbers (a negative word has the node count added), gathers the node
  table's rows at them (each start index read signed and clamped into the table), joins the two gathered rows and the
  edge's own feature row into one row of 384 entries, and applies three affine layers — the first two each followed by a
  rectifier — and a normalisation over the 128 entries of the result row. Each stage is read here at explicit
  coordinates `(e, j)`: the index columns, the gathered rows, the three thirds of the joined row, the three layers and
  the normalisation. The one algebraic step is in the first layer: the sum over the joined row's 384 positions is the sum
  of the sums over its three thirds, each third read from the row it was joined from, which is how the specification
  writes the first layer. Everything else is reading an operation at an index.
-/
import proofs.«177719_j11527692222555_2_alg».proof.Proof.Gen.ReferenceIdeal.Read
import proofs.«177719_j11527692222555_2_alg».proof.Proof.Spec
import proofs.«177719_j11527692222555_2_alg».proof.Proof.LibRowGather
import Idealize.ShloMosaic.Lib.ValueIdx
import Idealize.ShloMosaic.Lib.Pipeline.Value
import Idealize.ShloMosaic.PureOps.Ideal.Laws

noncomputable section

open scoped BigOperators

namespace Cert.EdgeMlp.Ref

open Cert.ReferenceIdeal Cert.ReferenceIdeal.Read Idealize.ShloMosaic Idealize.ShloMosaic.ValueIdx Cert.EdgeMlp

/-! ## The node numbers, normalised -/

/-- The first index column at edge `e`: the source word of `e`, a negative one with the node count added. -/
theorem srcWord (x2 : (⟨S2x640000, .i32⟩ : BufTy).Contents (Elt Ideal)) (e : Fin 640000) :
    val_main_v9 (F := Ideal) x2 (ix2 e (0 : Fin 1)) = wrapIdx (x2 (ix2 (0 : Fin 2) e)) := by
  rw [val_main_v9_apply, val_main_v8_apply, val_main_v5_apply, val_main_v7_apply, val_main_v1_apply, val_main_v0_apply,
    val_main_v4_apply, val_main_v6_apply, val_main_c_apply, val_main_c_0_apply]
  have h : idx_main_v0 (idx_main_v1 (idx_main_v9 (ix2 e (0 : Fin 1)))) = ix2 (0 : Fin 2) e := by
    funext a
    refine Fin.ext ?_
    match a with
    | ⟨0, _⟩ => rfl
    | ⟨1, _⟩ => exact Nat.mod_eq_of_lt e.isLt
  rw [h]
  rfl

/-- The second index column at edge `e`: the destination word of `e`, normalised the same way. -/
theorem dstWord (x2 : (⟨S2x640000, .i32⟩ : BufTy).Contents (Elt Ideal)) (e : Fin 640000) :
    val_main_v16 (F := Ideal) x2 (ix2 e (0 : Fin 1)) = wrapIdx (x2 (ix2 (1 : Fin 2) e)) := by
  rw [val_main_v16_apply, val_main_v15_apply, val_main_v12_apply, val_main_v14_apply, val_main_v3_apply, val_main_v2_apply,
    val_main_v11_apply, val_main_v13_apply, val_main_c_1_apply, val_main_c_2_apply]
  have h : idx_main_v2 (idx_main_v3 (idx_main_v16 (ix2 e (0 : Fin 1)))) = ix2 (1 : Fin 2) e := by
    funext a
    refine Fin.ext ?_
    match a with
    | ⟨0, _⟩ => rfl
    | ⟨1, _⟩ => exact Nat.mod_eq_of_lt e.isLt
  rw [h]
  rfl

/-! ## The gathered rows -/

/-- Row `e` of the first gather is the node table's row at the clamped source word. -/
theorem srcRow (x0 : (⟨S20000x128, .f32⟩ : BufTy).Contents (Elt Ideal)) (x2 : (⟨S2x640000, .i32⟩ : BufTy).Contents (Elt Ideal))
    (e : Fin 640000) (k : Fin 128) :
    val_main_v10 (F := Ideal) x0 x2 (ix2 e k) = x0 (ix2 (clampRow (wrapIdx (x2 (ix2 (0 : Fin 2) e)))) k) := by
  unfold val_main_v10
  refine (Cert.Lib.rowGather_apply' (by decide) gather_S20000x128_S640000x1_S640000x128_1_0_n_n_0_1_1128 rfl rfl rfl rfl rfl rfl rfl
    x0 (val_main_v9 (F := Ideal) x2) e k).trans ?_
  refine congrArg x0 (congrArg (fun r => ix2 r k) (Fin.ext ?_))
  show min (val_main_v9 (F := Ideal) x2 (ix2 e (0 : Fin 1))).toInt.toNat (20000 - 1) = _
  rw [srcWord]
  rfl

/-- Row `e` of the second gather is the node table's row at the clamped destination word. -/
theorem dstRow (x0 : (⟨S20000x128, .f32⟩ : BufTy).Contents (Elt Ideal)) (x2 : (⟨S2x640000, .i32⟩ : BufTy).Contents (Elt Ideal))
    (e : Fin 640000) (k : Fin 128) :
    val_main_v17 (F := Ideal) x0 x2 (ix2 e k) = x0 (ix2 (clampRow (wrapIdx (x2 (ix2 (1 : Fin 2) e)))) k) := by
  unfold val_main_v17
  refine (Cert.Lib.rowGather_apply' (by decide) gather_S20000x128_S640000x1_S640000x128_1_0_n_n_0_1_1128 rfl rfl rfl rfl rfl rfl rfl
    x0 (val_main_v16 (F := Ideal) x2) e k).trans ?_
  refine congrArg x0 (congrArg (fun r => ix2 r k) (Fin.ext ?_))
  show min (val_main_v16 (F := Ideal) x2 (ix2 e (0 : Fin 1))).toInt.toNat (20000 - 1) = _
  rw [dstWord]
  rfl

/-! ## The joined row -/

/-- The first third of the joined row is the source row. -/
theorem catLo (x0 : (⟨S20000x128, .f32⟩ : BufTy).Contents (Elt Ideal)) (x1 : (⟨S640000x128, .f32⟩ : BufTy).Contents (Elt Ideal))
    (x2 : (⟨S2x640000, .i32⟩ : BufTy).Contents (Elt Ideal)) (e : Fin 640000) (k : Fin 128) :
    val_main_v18 (F := Ideal) x0 x1 x2 (ix2 e (lo k)) = val_main_v10 (F := Ideal) x0 x2 (ix2 e k) := by
  unfold val_main_v18
  refine concatenate_apply_piece (1 : Fin 2) _ _ (ix2 e (lo k)) 0 ?_ S640000x128 (val_main_v10 (F := Ideal) x0 x2) ?_ ?_
    0 ?_ (ix2 e k) ?_ ?_
  · show _ < 3
    omega
  · rfl
  · rfl
  · rfl
  · intro b hb
    match b, hb with
    | ⟨0, _⟩, _ => rfl
    | ⟨1, _⟩, hb => exact absurd rfl hb
  · exact Nat.zero_add _

/-- The second third of the joined row is the destination row. -/
theorem catMid (x0 : (⟨S20000x128, .f32⟩ : BufTy).Contents (Elt Ideal)) (x1 : (⟨S640000x128, .f32⟩ : BufTy).Contents (Elt Ideal))
    (x2 : (⟨S2x640000, .i32⟩ : BufTy).Contents (Elt Ideal)) (e : Fin 640000) (k : Fin 128) :
    val_main_v18 (F := Ideal) x0 x1 x2 (ix2 e (mid k)) = val_main_v17 (F := Ideal) x0 x2 (ix2 e k) := by
  unfold val_main_v18
  refine concatenate_apply_piece (1 : Fin 2) _ _ (ix2 e (mid k)) 1 ?_ S640000x128 (val_main_v17 (F := Ideal) x0 x2) ?_ ?_
    128 ?_ (ix2 e k) ?_ ?_
  · show _ < 3
    omega
  · rfl
  · rfl
  · rfl
  · intro b hb
    match b, hb with
    | ⟨0, _⟩, _ => rfl
    | ⟨1, _⟩, hb => exact absurd rfl hb
  · rfl

/-- The last third of the joined row is the edge's own feature row. -/
theorem catHi (x0 : (⟨S20000x128, .f32⟩ : BufTy).Contents (Elt Ideal)) (x1 : (⟨S640000x128, .f32⟩ : BufTy).Contents (Elt Ideal))
    (x2 : (⟨S2x640000, .i32⟩ : BufTy).Contents (Elt Ideal)) (e : Fin 640000) (k : Fin 128) :
    val_main_v18 (F := Ideal) x0 x1 x2 (ix2 e (hi k)) = x1 (ix2 e k) := by
  unfold val_main_v18
  refine concatenate_apply_piece (1 : Fin 2) _ _ (ix2 e (hi k)) 2 ?_ S640000x128 (x1) ?_ ?_
    256 ?_ (ix2 e k) ?_ ?_
  · show _ < 3
    omega
  · rfl
  · rfl
  · rfl
  · intro b hb
    match b, hb with
    | ⟨0, _⟩, _ => rfl
    | ⟨1, _⟩, hb => exact absurd rfl hb
  · rfl

variable (x0 : (⟨S20000x128, .f32⟩ : BufTy).Contents (Elt Ideal)) (x1 : (⟨S640000x128, .f32⟩ : BufTy).Contents (Elt Ideal))
  (x2 : (⟨S2x640000, .i32⟩ : BufTy).Contents (Elt Ideal)) (x3 : (⟨S384x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S256x128, .f32⟩ : BufTy).Contents (Elt Ideal))
  (x8 x9 x10 : (⟨S128, .f32⟩ : BufTy).Contents (Elt Ideal))

/-! ## The three layers of edge `e` -/

/-- Edge `e`'s first hidden row: the first layer over the three rows and the three blocks of its matrix, rectified. -/
def hid1 (e : Fin 640000) (j : Fin 256) : EReal :=
  relu0 (dense3 (fun k => x0 (ix2 (clampRow (wrapIdx (x2 (ix2 (0 : Fin 2) e)))) k))
    (fun k => x0 (ix2 (clampRow (wrapIdx (x2 (ix2 (1 : Fin 2) e)))) k)) (fun k => x1 (ix2 e k))
    (fun k j => x3 (ix2 (lo k) j)) (fun k j => x3 (ix2 (mid k) j)) (fun k j => x3 (ix2 (hi k) j)) (fun j => x4 (ix1 j)) j)

/-- Edge `e`'s second hidden row: the second layer of the first hidden row, rectified. -/
def hid2 (e : Fin 640000) (j : Fin 256) : EReal :=
  relu0 (dense (hid1 x0 x1 x2 x3 x4 e) (fun k j => x5 (ix2 k j)) (fun j => x6 (ix1 j)) j)

/-- Edge `e`'s row before normalisation: the third layer of the second hidden row. -/
def out3 (e : Fin 640000) (c : Fin 128) : EReal :=
  dense (hid2 x0 x1 x2 x3 x4 x5 x6 e) (fun k j => x7 (ix2 k j)) (fun j => x8 (ix1 j)) c

/-- The first product, rectified after the bias, is the first hidden row: the sum over the joined row's 384 positions is
    the sum of its three thirds' sums, each third read from the row it was joined from. -/
theorem layer1 (e : Fin 640000) (j : Fin 256) :
    val_main_v23 (F := Ideal) x0 x1 x2 x3 x4 (ix2 e j) = hid1 x0 x1 x2 x3 x4 e j := by
  rw [val_main_v23_apply, val_main_v22_apply, val_main_v19_apply, val_main_v21_apply, val_main_v20_apply,
    val_main_call0_v0_apply, val_main_call0_cst_apply, sum_three_blocks]
  have hl : ∀ k : Fin 384, lidx_main_v19 (ix2 e j) k = ix2 e k := fun k => by
    funext a; match a with | ⟨0, _⟩ => rfl | ⟨1, _⟩ => rfl
  have hr : ∀ k : Fin 384, ridx_main_v19 (ix2 e j) k = ix2 k j := fun k => by
    funext a; match a with | ⟨0, _⟩ => rfl | ⟨1, _⟩ => rfl
  have hb : idx_main_v20 (idx_main_v21 (ix2 e j)) = ix1 j := by
    funext a; match a with | ⟨0, _⟩ => rfl
  simp only [hl, hr, hb, catLo, catMid, catHi, srcRow, dstRow]
  rfl

/-- The second product, rectified after the bias, is the second hidden row. -/
theorem layer2 (e : Fin 640000) (j : Fin 256) :
    val_main_v28 (F := Ideal) x0 x1 x2 x3 x4 x5 x6 (ix2 e j) = hid2 x0 x1 x2 x3 x4 x5 x6 e j := by
  rw [val_main_v28_apply, val_main_v27_apply, val_main_v24_apply, val_main_v26_apply, val_main_v25_apply,
    val_main_call1_v0_apply, val_main_call1_cst_apply]
  have hl : ∀ k : Fin 256, lidx_main_v24 (ix2 e j) k = ix2 e k := fun k => by
    funext a; match a with | ⟨0, _⟩ => rfl | ⟨1, _⟩ => rfl
  have hr : ∀ k : Fin 256, ridx_main_v24 (ix2 e j) k = ix2 k j := fun k => by
    funext a; match a with | ⟨0, _⟩ => rfl | ⟨1, _⟩ => rfl
  have hb : idx_main_v25 (idx_main_v26 (ix2 e j)) = ix1 j := by
    funext a; match a with | ⟨0, _⟩ => rfl
  simp only [hl, hr, hb, layer1]
  rfl

/-- The third product with its bias is the row before normalisation. -/
theorem layer3 (e : Fin 640000) (c : Fin 128) :
    val_main_v32 (F := Ideal) x0 x1 x2 x3 x4 x5 x6 x7 x8 (ix2 e c) = out3 x0 x1 x2 x3 x4 x5 x6 x7 x8 e c := by
  rw [val_main_v32_apply, val_main_v29_apply, val_main_v31_apply, val_main_v30_apply]
  have hl : ∀ k : Fin 256, lidx_main_v29 (ix2 e c) k = ix2 e k := fun k => by
    funext a; match a with | ⟨0, _⟩ => rfl | ⟨1, _⟩ => rfl
  have hr : ∀ k : Fin 256, ridx_main_v29 (ix2 e c) k = ix2 k c := fun k => by
    funext a; match a with | ⟨0, _⟩ => rfl | ⟨1, _⟩ => rfl
  have hb : idx_main_v30 (idx_main_v31 (ix2 e c)) = ix1 c := by
    funext a; match a with | ⟨0, _⟩ => rfl
  simp only [hl, hr, hb, layer2]
  rfl

/-! ## The normalisation of edge `e`'s row -/

/-- The sum along row `e` is the sum of the row: its initial value is the zero word's value, zero. -/
theorem rowSum (e : Fin 640000) :
    val_main_v33 (F := Ideal) x0 x1 x2 x3 x4 x5 x6 x7 x8 (ix1 e) = ∑ k : Fin 128, out3 x0 x1 x2 x3 x4 x5 x6 x7 x8 e k := by
  rw [val_main_v33_apply, val_main_cst_apply, Ideal.ofBits_def, Ideal.ofBits_zero_f32, zero_add]
  have h : ∀ k : Fin 128, idx_main_v33 (ix1 e) k = ix2 e k := fun k => by
    funext a; match a with | ⟨0, _⟩ => rfl | ⟨1, _⟩ => rfl
  simp only [h, layer3]

/-- The mean column at `e` is the row's mean. -/
theorem mean (e : Fin 640000) :
    val_main_v36 (F := Ideal) x0 x1 x2 x3 x4 x5 x6 x7 x8 (ix2 e (0 : Fin 1)) = rowMean (out3 x0 x1 x2 x3 x4 x5 x6 x7 x8 e) := by
  rw [val_main_v36_apply, val_main_v34_apply, val_main_v35_apply, val_main_cst_3_apply]
  have h : idx_main_v34 (ix2 e (0 : Fin 1)) = ix1 e := by
    funext a; match a with | ⟨0, _⟩ => rfl
  rw [h, rowSum]
  rfl

/-- The row less its mean, as the squared deviations read it. -/
theorem centredSq (e : Fin 640000) (c : Fin 128) :
    val_main_v38 (F := Ideal) x0 x1 x2 x3 x4 x5 x6 x7 x8 (ix2 e c) = out3 x0 x1 x2 x3 x4 x5 x6 x7 x8 e c - rowMean (out3 x0 x1 x2 x3 x4 x5 x6 x7 x8 e) := by
  rw [val_main_v38_apply, val_main_v37_apply, layer3]
  have h : idx_main_v37 (ix2 e c) = ix2 e (0 : Fin 1) := by
    funext a; match a with | ⟨0, _⟩ => rfl | ⟨1, _⟩ => rfl
  rw [h, mean]
  rfl

/-- The row less its mean, as the result reads it. -/
theorem centred (e : Fin 640000) (c : Fin 128) :
    val_main_v45 (F := Ideal) x0 x1 x2 x3 x4 x5 x6 x7 x8 (ix2 e c) = out3 x0 x1 x2 x3 x4 x5 x6 x7 x8 e c - rowMean (out3 x0 x1 x2 x3 x4 x5 x6 x7 x8 e) := by
  rw [val_main_v45_apply, val_main_v44_apply, layer3]
  have h : idx_main_v44 (ix2 e c) = ix2 e (0 : Fin 1) := by
    funext a; match a with | ⟨0, _⟩ => rfl | ⟨1, _⟩ => rfl
  rw [h, mean]
  rfl

/-- The sum of the squared deviations along row `e`. -/
theorem sqSum (e : Fin 640000) :
    val_main_v40 (F := Ideal) x0 x1 x2 x3 x4 x5 x6 x7 x8 (ix1 e)
      = ∑ k : Fin 128, (out3 x0 x1 x2 x3 x4 x5 x6 x7 x8 e k - rowMean (out3 x0 x1 x2 x3 x4 x5 x6 x7 x8 e)) * (out3 x0 x1 x2 x3 x4 x5 x6 x7 x8 e k - rowMean (out3 x0 x1 x2 x3 x4 x5 x6 x7 x8 e)) := by
  rw [val_main_v40_apply, val_main_cst_4_apply, Ideal.ofBits_def, Ideal.ofBits_zero_f32, zero_add]
  have h : ∀ k : Fin 128, idx_main_v40 (ix1 e) k = ix2 e k := fun k => by
    funext a; match a with | ⟨0, _⟩ => rfl | ⟨1, _⟩ => rfl
  simp only [h, val_main_v39_apply, centredSq, Ideal.mulf_def]

/-- The reciprocal square root column at `e`: of the mean squared deviation plus the small constant. -/
theorem invStd (e : Fin 640000) :
    val_main_v48 (F := Ideal) x0 x1 x2 x3 x4 x5 x6 x7 x8 (ix2 e (0 : Fin 1))
      = Ideal.rsqrt (Ideal.div (∑ k : Fin 128, (out3 x0 x1 x2 x3 x4 x5 x6 x7 x8 e k - rowMean (out3 x0 x1 x2 x3 x4 x5 x6 x7 x8 e)) * (out3 x0 x1 x2 x3 x4 x5 x6 x7 x8 e k - rowMean (out3 x0 x1 x2 x3 x4 x5 x6 x7 x8 e)))
          (Ideal.ofBits .f32 0x43000000#32) + Ideal.ofBits .f32 0x3727C5AC#32) := by
  rw [val_main_v48_apply, val_main_v47_apply, val_main_v43_apply, val_main_v41_apply, val_main_v42_apply, val_main_cst_5_apply,
    val_main_v46_apply, val_main_cst_6_apply]
  have h : idx_main_v41 (ix2 e (0 : Fin 1)) = ix1 e := by
    funext a; match a with | ⟨0, _⟩ => rfl
  rw [h, sqSum]
  rfl

/-- The result at `(e, c)` is the normalisation of edge `e`'s row, scaled and shifted. -/
theorem normed (e : Fin 640000) (c : Fin 128) :
    val_main_v56 (F := Ideal) x0 x1 x2 x3 x4 x5 x6 x7 x8 x9 x10 (ix2 e c)
      = lnorm (out3 x0 x1 x2 x3 x4 x5 x6 x7 x8 e) (fun j => x9 (ix1 j)) (fun j => x10 (ix1 j)) c := by
  rw [val_main_v56_apply, val_main_v53_apply, val_main_v50_apply, val_main_v49_apply, val_main_v52_apply, val_main_v51_apply,
    val_main_v55_apply, val_main_v54_apply, centred]
  have h49 : idx_main_v49 (ix2 e c) = ix2 e (0 : Fin 1) := by
    funext a; match a with | ⟨0, _⟩ => rfl | ⟨1, _⟩ => rfl
  have h9 : idx_main_v51 (idx_main_v52 (ix2 e c)) = ix1 c := by
    funext a; match a with | ⟨0, _⟩ => rfl
  have h10 : idx_main_v54 (idx_main_v55 (ix2 e c)) = ix1 c := by
    funext a; match a with | ⟨0, _⟩ => rfl
  rw [h49, h9, h10, invStd]
  rfl

/-! ## The reference is the specification -/

/-- The reference's result array is `G` of the argument arrays: entry by entry, the stages above in order. -/
theorem ref_is_G (x0 : (⟨S20000x128, .f32⟩ : BufTy).Contents (Elt Ideal)) (x1 : (⟨S640000x128, .f32⟩ : BufTy).Contents (Elt Ideal))
    (x2 : (⟨S2x640000, .i32⟩ : BufTy).Contents (Elt Ideal)) (x3 : (⟨S384x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (x7 : (⟨S256x128, .f32⟩ : BufTy).Contents (Elt Ideal))
    (x8 x9 x10 : (⟨S128, .f32⟩ : BufTy).Contents (Elt Ideal)) :
    Cert.ReferenceIdeal.Read.val_main_v56 (F := Ideal) x0 x1 x2 x3 x4 x5 x6 x7 x8 x9 x10
      = Cert.EdgeMlp.G x0 x1 x2 x3 x4 x5 x6 x7 x8 x9 x10 := by
  funext i
  obtain ⟨e, c, rfl⟩ : ∃ (e : Fin 640000) (c : Fin 128), i = ix2 e c := ⟨i 0, i 1, eq_ix2 i⟩
  rw [normed]
  rfl

end Cert.EdgeMlp.Ref

end
-- ==== Proof.lean ====
/-
  The edge network's kernel against its reference, on the extended reals.

  Both programs compute, for every edge, the same function of the argument arrays (`Cert.EdgeMlp.G`): the source and
  destination rows of the node table at the edge's two node numbers and the edge's own feature row go through three
  affine layers, the first two rectified, and the result row is normalised, scaled and shifted. The kernel gathers
  the rows once over the two index columns joined end to end, never assembles the 384-entry input row but adds the
  three products with the three row blocks of the first weight matrix, and works on 4000 edges per grid point; the
  reference gathers twice, joins the three rows and multiplies once. The two first layers agree because a sum over 384
  positions is the sum over its three thirds, a law of addition alone, so nothing about the inputs is used beyond what
  the frames need. The kernel's side is read block by block off its run and pieced into the whole array; the
  reference's side is read off its run one operation at a time.
-/
import proofs.«177719_j11527692222555_2_alg».proof.Defs
import proofs.«177719_j11527692222555_2_alg».proof.Proof.Gen.Kernel
import proofs.«177719_j11527692222555_2_alg».proof.Proof.Gen.Kernel.Skeleton
import proofs.«177719_j11527692222555_2_alg».proof.Proof.Gen.Kernel.Launch
import proofs.«177719_j11527692222555_2_alg».proof.Proof.Gen.Kernel.Points
import proofs.«177719_j11527692222555_2_alg».proof.Proof.Gen.Kernel.Frame
import proofs.«177719_j11527692222555_2_alg».proof.Proof.Gen.KernelIdeal
import proofs.«177719_j11527692222555_2_alg».proof.Proof.Gen.KernelIdeal.Skeleton
import proofs.«177719_j11527692222555_2_alg».proof.Proof.Gen.KernelIdeal.Launch
import proofs.«177719_j11527692222555_2_alg».proof.Proof.Gen.KernelIdeal.Points
import proofs.«177719_j11527692222555_2_alg».proof.Proof.Gen.KernelIdeal.Frame
import proofs.«177719_j11527692222555_2_alg».proof.Proof.Gen.KernelIdeal.Value
import proofs.«177719_j11527692222555_2_alg».proof.Proof.Gen.ReferenceIdeal
import proofs.«177719_j11527692222555_2_alg».proof.Proof.Gen.ReferenceIdeal.Run
import proofs.«177719_j11527692222555_2_alg».proof.Proof.Gen.ReferenceIdeal.Read
import proofs.«177719_j11527692222555_2_alg».proof.Proof.Gen.Pre_finite_inputs
import proofs.«177719_j11527692222555_2_alg».proof.Proof.Blocks
import proofs.«177719_j11527692222555_2_alg».proof.Proof.RefRow
import Idealize.ShloMosaic.Adequacy
import Idealize.ShloMosaic.Init

noncomputable section

namespace Cert.Proof

open Idealize.ShloMosaic Idealize.ShloMosaic.TcCoe Idealize.SL.Sem

/-- The kernel's program as printed runs, faults nowhere and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at the specification's array of
    the arguments: the kernel's run read block by block, the reference's run read operation by operation. -/
theorem algebraic : Cert.algebraic_KernelIdeal_ReferenceIdeal := by
  intro m ρ m' ρ' _ hagree
  refine ⟨fun c => Cert.EdgeMlp.Blocks.Gm m c, Cert.EdgeMlp.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, Cert.EdgeMlp.Ref.ref_is_G]
  obtain ⟨a0, a1, a2, a3, a4, a5, a6, a7, a8, a9, a10⟩ := hagree c
  rw [a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
